-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩

abbrev nBuf : Space → Nat
  | .hbm => 54
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x1, .f32⟩
  | .hbm, ⟨36, _⟩ => ⟨S100000x128, .f32⟩
  | .hbm, ⟨37, _⟩ => ⟨S100000x1, .f32⟩
  | .hbm, ⟨38, _⟩ => ⟨S100000x40, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x40, .f32⟩
  | .hbm, ⟨48, _⟩ => ⟨S_, .f32⟩
  | .hbm, ⟨49, _⟩ => ⟨S100000x40, .f32⟩
  | .hbm, ⟨50, _⟩ => ⟨S1600000x1, .i32⟩
  | .hbm, ⟨51, _⟩ => ⟨S100000x40, .f32⟩
  | .hbm, ⟨52, _⟩ => ⟨S100000x1, .f32⟩
  | .hbm, ⟨53, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x40, .f32⟩
  | .local _ .vmem, ⟨19, _⟩ => ⟨S5000x1, .f32⟩
  | .local _ .vmem, ⟨20, _⟩ => ⟨S5000x1, .f32⟩
  | .local _ .vmem, ⟨21, _⟩ => ⟨S5000x40, .f32⟩
  | .local _ .vmem, ⟨22, _⟩ => ⟨S5000x40, .f32⟩
  | .local _ .vmem, ⟨23, _⟩ => ⟨S5000x40, .f32⟩
  | .local _ .vmem, ⟨24, _⟩ => ⟨S5000x40, .f32⟩
  | .local _ .vmem, ⟨25, _⟩ => ⟨S5000x40, .f32⟩
  | .local _ .vmem, ⟨26, _⟩ => ⟨S5000x40, .f32⟩
  | .local _ .vmem, ⟨27, _⟩ => ⟨S5000x1, .f32⟩
  | .local _ .vmem, ⟨28, _⟩ => ⟨S5000x1, .f32⟩
  | .local _ .vmem, ⟨29, _⟩ => ⟨S40, .f32⟩
  | .local _ .vmem, ⟨30, _⟩ => ⟨S5000x40, .f32⟩
  | .local _ .vmem, ⟨31, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S5000x40_S5000x40 : S5000x40.ShapeCasts S5000x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x40.size a ≤ S100000x40.size a
  hwx3_1 : ∀ i : grid3.Coords, EltTy.bits .f32 = 32 ∨ (Rect.block (s := S100000x40) S5000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S40.size a ≤ S40.size a
  hwx3_3 : ∀ i : grid3.Coords, EltTy.bits .f32 = 32 ∨ (Rect.block (s := S40) S40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x40.size a ≤ S100000x40.size a
  hwx3_4 : ∀ i : grid3.Coords, EltTy.bits .f32 = 32 ∨ (Rect.block (s := S100000x40) S5000x40.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S5000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S5000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S100000x40, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x40, .f32⟩
  | .hbm, ⟨115, _⟩ => ⟨S1700000x1, .f32⟩
  | .hbm, ⟨116, _⟩ => ⟨S1700000x40, .f32⟩
  | .hbm, ⟨117, _⟩ => ⟨S1700000x40, .f32⟩
  | .hbm, ⟨118, _⟩ => ⟨S_, .f32⟩
  | .hbm, ⟨119, _⟩ => ⟨S100000x40, .f32⟩
  | .hbm, ⟨120, _⟩ => ⟨S1700000x1, .i32⟩
  | .hbm, ⟨121, _⟩ => ⟨S100000x40, .f32⟩
  | .hbm, ⟨122, _⟩ => ⟨S1x40, .f32⟩
  | .hbm, ⟨123, _⟩ => ⟨S100000x40, .f32⟩
  | .hbm, ⟨124, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.GraphConvSpec.lean ====
/-
  One graph-convolution layer with symmetric normalisation, as whole-array functions over the extended reals.

  Nodes are the rows of an [n, k] feature array. A layer projects every row by a [k, f] weight matrix and scales the
  projected row of node r by that node's factor D[r] (`matScale`: entry (r, q) is (∑ j, X[r, j] · W[j, q]) · D[r, 0]).
  After the scaled rows have been sent along the edges and summed at their targets into S, the layer adds the node's
  own scaled row H, scales the sum by the node's factor once more and adds the bias
  (`combine`: entry (r, q) is (S[r, q] + H[r, q]) · D[r, 0] + b[q]); a rectified layer takes the maximum with a
  threshold z (`combineRelu`). The factor arrives as a column [n, 1], the bias as a vector [f].
-/
import Idealize.ShloMosaic.PureOps.Ideal
import Idealize.ShloMosaic.Lib.ValueIdx

noncomputable section

namespace Cert.GraphConv

open Idealize.ShloMosaic Idealize.ShloMosaic.ValueIdx

/-- The projected rows, each scaled by its own node's factor. -/
def matScale {n k f : ℕ} (X : (⟨2, ![n, k]⟩ : Shape).Idx → EReal) (W : (⟨2, ![k, f]⟩ : Shape).Idx → EReal)
    (D : (⟨2, ![n, 1]⟩ : Shape).Idx → EReal) : (⟨2, ![n, f]⟩ : Shape).Idx → EReal :=
  fun p => (∑ j : Fin k, X (ix2 (p 0) j) * W (ix2 j (p 1))) * D (ix2 (p 0) (0 : Fin 1))

theorem matScale_ix2 {n k f : ℕ} (X : (⟨2, ![n, k]⟩ : Shape).Idx → EReal) (W : (⟨2, ![k, f]⟩ : Shape).Idx → EReal)
    (D : (⟨2, ![n, 1]⟩ : Shape).Idx → EReal) (r : Fin n) (q : Fin f) :
    matScale X W D (ix2 r q) = (∑ j : Fin k, X (ix2 r j) * W (ix2 j q)) * D (ix2 r (0 : Fin 1)) := rfl

/-- The aggregated messages plus the node's own scaled row, scaled by the node's factor, plus the bias. -/
def combine {n f : ℕ} (S H : (⟨2, ![n, f]⟩ : Shape).Idx → EReal) (D : (⟨2, ![n, 1]⟩ : Shape).Idx → EReal)
    (b : (⟨1, ![f]⟩ : Shape).Idx → EReal) : (⟨2, ![n, f]⟩ : Shape).Idx → EReal :=
  fun p => (S p + H p) * D (ix2 (p 0) (0 : Fin 1)) + b (ix1 (p 1))

theorem combine_ix2 {n f : ℕ} (S H : (⟨2, ![n, f]⟩ : Shape).Idx → EReal) (D : (⟨2, ![n, 1]⟩ : Shape).Idx → EReal)
    (b : (⟨1, ![f]⟩ : Shape).Idx → EReal) (r : Fin n) (q : Fin f) :
    combine S H D b (ix2 r q) = (S (ix2 r q) + H (ix2 r q)) * D (ix2 r (0 : Fin 1)) + b (ix1 q) := rfl

/-- The same, rectified at the threshold `z`. -/
def combineRelu {n f : ℕ} (z : EReal) (S H : (⟨2, ![n, f]⟩ : Shape).Idx → EReal) (D : (⟨2, ![n, 1]⟩ : Shape).Idx → EReal)
    (b : (⟨1, ![f]⟩ : Shape).Idx → EReal) : (⟨2, ![n, f]⟩ : Shape).Idx → EReal :=
  fun p => max (combine S H D b p) z

theorem combineRelu_ix2 {n f : ℕ} (z : EReal) (S H : (⟨2, ![n, f]⟩ : Shape).Idx → EReal) (D : (⟨2, ![n, 1]⟩ : Shape).Idx → EReal)
    (b : (⟨1, ![f]⟩ : Shape).Idx → EReal) (r : Fin n) (q : Fin f) :
    combineRelu z S H D b (ix2 r q) = max ((S (ix2 r q) + H (ix2 r q)) * D (ix2 r (0 : Fin 1)) + b (ix1 q)) z := rfl

end Cert.GraphConv

end
-- ==== Proof.KernelTerms.lean ====
/-
  What the kernel program computes, as functions of its six arguments, at the extended reals.

  The edge list is a [2, E] array of words: row 0 the sources, row 1 the targets. A node's degree is the number of edges
  whose target it is, plus one (its own loop, counted without being listed); its factor is the inverse square root of
  the degree, as a vector (`factor`) and as a column (`factorCol`). A source word below zero is read from the end
  (`srcIdx`: n is added to it), and the gather clamps what remains into the table. One layer scales the projected
  rows by the factor (`GraphConv.matScale`), sends each scaled row along the edges and sums at the targets
  (`aggregate…`: a gather of rows followed by an accumulating scatter into zeros), and combines (`GraphConv.combine`).
  The hidden layer is rectified; the output layer is not.
-/
import proofs.«154312_j15479062135311_2_alg».proof.Proof.Gen.KernelIdeal
import proofs.«154312_j15479062135311_2_alg».proof.Proof.GraphConvSpec
import Idealize.ShloMosaic.PureOps.Ideal

noncomputable section

namespace Cert.KernelIdeal.GraphTerms

open Cert.KernelIdeal Cert.KernelIdeal.Facts₀ Idealize.ShloMosaic

variable (ei : IVec S2x1600000 32)

/-- The edges' source words: row 0 of the edge list. -/
def srcWords : IVec S1600000 32 :=
  shapeCast _ (extractStridedSlice S1x1600000 ![0, 0] ei slices_S2x1600000_S1x1600000_0_0) shapeCasts_S1x1600000_S1600000
/-- The edges' target words: row 1 of the edge list. -/
def dstWords : IVec S1600000 32 :=
  shapeCast _ (extractStridedSlice S1x1600000 ![1, 0] ei slices_S2x1600000_S1x1600000_1_0) shapeCasts_S1x1600000_S1600000
/-- The targets as a column of scatter positions. -/
def dstIdx : IVec S1600000x1 32 := broadcastInDim S1600000x1 ![0] bcast_S1600000_S1600000x1_0 (dstWords ei)
/-- The sources as a column of gather positions, a word below zero read from the end. -/
def srcIdx : IVec S1600000x1 32 :=
  broadcastInDim S1600000x1 ![0] bcast_S1600000_S1600000x1_0
    (select (cmpi .slt (srcWords ei) (broadcastInDim S1600000 ![] bcast_S_S1600000 (constantI S_ 32 0#32)))
      (addi (srcWords ei) (broadcastInDim S1600000 ![] bcast_S_S1600000 (constantI S_ 32 100000#32))) (srcWords ei))

/-- The degree: the count of edges at each target, plus one. -/
def degree : FVec Ideal S100000 .f32 :=
  addf (Host.scatterAdd (F := Ideal) scatter_S100000_S1600000x1_S1600000_n_0_0_1
      (broadcastInDim S100000 ![] bcast_S_S100000 (constant (F := Ideal) S_ .f32 0x00000000#32)) (dstIdx ei)
      (broadcastInDim S1600000 ![] bcast_S_S1600000 (constant (F := Ideal) S_ .f32 0x3F800000#32)))
    (broadcastInDim S100000 ![] bcast_S_S100000 (constant (F := Ideal) S_ .f32 0x3F800000#32))
/-- The node factor 1/√degree. -/
def factor : FVec Ideal S100000 .f32 := Host.rsqrt (F := Ideal) (degree ei)
/-- The same as a column. -/
def factorCol : FVec Ideal S100000x1 .f32 := shapeCast _ (factor ei) shapeCasts_S100000_S100000x1

/-- Rows of a 128-column table sent along the edges and summed at the targets. -/
def aggregate128 (H : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (dstIdx ei)
    (Host.gather gather_S100000x128_S1600000x1_S1600000x128_1_0_n_n_0_1_1128 H (srcIdx ei))
/-- Rows of a 40-column table sent along the edges and summed at the targets. -/
def aggregate40 (H : FVec Ideal S100000x40 .f32) : FVec Ideal S100000x40 .f32 :=
  Host.scatterAdd (F := Ideal) scatter_S100000x40_S1600000x1_S1600000x40_1_0_0_1
    (broadcastInDim S100000x40 ![] bcast_S_S100000x40 (constant (F := Ideal) S_ .f32 0x00000000#32)) (dstIdx ei)
    (Host.gather gather_S100000x40_S1600000x1_S1600000x40_1_0_n_n_0_1_140 H (srcIdx ei))

variable (x : FVec Ideal S100000x128 .f32) (W1 : FVec Ideal S128x128 .f32) (b1 : FVec Ideal S128 .f32)
  (W2 : FVec Ideal S128x40 .f32) (b2 : FVec Ideal S40 .f32)

/-- Layer 1's projected rows, scaled. -/
def scaled1 : FVec Ideal S100000x128 .f32 := GraphConv.matScale x W1 (factorCol ei)
/-- The hidden activations. -/
def hidden : FVec Ideal S100000x128 .f32 :=
  GraphConv.combineRelu (Ideal.ofBits .f32 0x00000000#32) (aggregate128 ei (scaled1 ei x W1)) (scaled1 ei x W1) (factorCol ei) b1
/-- Layer 2's projected rows, scaled. -/
def scaled2 : FVec Ideal S100000x40 .f32 := GraphConv.matScale (hidden ei x W1 b1) W2 (factorCol ei)
/-- The output. -/
def logits : FVec Ideal S100000x40 .f32 :=
  GraphConv.combine (aggregate40 ei (scaled2 ei x W1 b1 W2)) (scaled2 ei x W1 b1 W2) (factorCol ei) b2

end Cert.KernelIdeal.GraphTerms

end
-- ==== Proof.KernelWalk.lean ====
/-
  The kernel program's run with its two results named, and what every region finds in its arrays when it is entered.

  @main is four regions among four stretches of host operations. The contents of the TensorCore's buffers at each
  boundary are a fold from the launch memory. Read back through that fold:
  * the source and target words, the node factor and its column are written by the first stretch and by nothing
    after it, so every later boundary finds them as the first one left them;
  * the arguments are never written;
  * before regions 1 and 3 a stretch gathers the scaled rows the previous region left, along the edges, and sums them
    at the targets.
  The run itself is the regions' composition the generated frame proves; here its last state is read at the two
  result buffers as well as at the arguments.
-/
import proofs.«154312_j15479062135311_2_alg».proof.Proof.Gen.KernelIdeal.Frame
import proofs.«154312_j15479062135311_2_alg».proof.Proof.KernelTerms
import Idealize.ShloMosaic.Lib.StableHlo.Run
import Idealize.ShloMosaic.PureOps.Ideal

set_option maxRecDepth 16384

noncomputable section

namespace Cert.KernelIdeal.GraphWalk

open Cert.KernelIdeal Cert.KernelIdeal.Gen Cert.KernelIdeal.GraphTerms
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (c : Dev nD)

/-! ## The six arguments, as plain arrays -/

abbrev argX : FVec Ideal S100000x128 .f32 := m ((c.tc : Thread nD τ).loc main_arg0)
abbrev argE : IVec S2x1600000 32 := m ((c.tc : Thread nD τ).loc main_arg1)
abbrev argW1 : FVec Ideal S128x128 .f32 := m ((c.tc : Thread nD τ).loc main_arg2)
abbrev argB1 : FVec Ideal S128 .f32 := m ((c.tc : Thread nD τ).loc main_arg3)
abbrev argW2 : FVec Ideal S128x40 .f32 := m ((c.tc : Thread nD τ).loc main_arg4)
abbrev argB2 : FVec Ideal S40 .f32 := m ((c.tc : Thread nD τ).loc main_arg5)

/-! ## A stretch of host operations leaves a buffer it does not write as it was -/

/-- Closes "buffer b is written by no operation of this stretch": the stretch's writes are listed and compared. -/
macro "not_written" : tactic => `(tactic| (
  refine List.forall_iff_forall_mem.mp ?_
  simp only [hostOps0, hostOps1, hostOps2, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## After the first stretch -/

theorem first_src : (W1 m ρ c (Proc.devRef .tc main_v1) : IVec S1600000 32) = srcWords (argE m c) := by
  show StableHlo.after hostOps0 (W0 m ρ c) (Proc.devRef .tc main_v1) = _
  after_results; rfl
theorem first_dst : (W1 m ρ c (Proc.devRef .tc main_v3) : IVec S1600000 32) = dstWords (argE m c) := by
  show StableHlo.after hostOps0 (W0 m ρ c) (Proc.devRef .tc main_v3) = _
  after_results; rfl
theorem first_factor : (W1 m ρ c (Proc.devRef .tc main_v10) : FVec Ideal S100000 .f32) = factor (argE m c) := by
  show StableHlo.after hostOps0 (W0 m ρ c) (Proc.devRef .tc main_v10) = _
  after_results; rfl
theorem first_factorCol : (W1 m ρ c (Proc.devRef .tc main_v11) : FVec Ideal S100000x1 .f32) = factorCol (argE m c) := by
  show StableHlo.after hostOps0 (W0 m ρ c) (Proc.devRef .tc main_v11) = _
  after_results; rfl
theorem first_arg0 : (W1 m ρ c (Proc.devRef .tc main_arg0) : FVec Ideal S100000x128 .f32) = argX m c :=
  StableHlo.after_of_forall_not_mem (b := Proc.devRef .tc main_arg0) _ _ (by not_written)
theorem first_arg2 : (W1 m ρ c (Proc.devRef .tc main_arg2) : FVec Ideal S128x128 .f32) = argW1 m c :=
  StableHlo.after_of_forall_not_mem (b := Proc.devRef .tc main_arg2) _ _ (by not_written)
theorem first_arg3 : (W1 m ρ c (Proc.devRef .tc main_arg3) : FVec Ideal S128 .f32) = argB1 m c :=
  StableHlo.after_of_forall_not_mem (b := Proc.devRef .tc main_arg3) _ _ (by not_written)
theorem first_arg4 : (W1 m ρ c (Proc.devRef .tc main_arg4) : FVec Ideal S128x40 .f32) = argW2 m c :=
  StableHlo.after_of_forall_not_mem (b := Proc.devRef .tc main_arg4) _ _ (by not_written)
theorem first_arg5 : (W1 m ρ c (Proc.devRef .tc main_arg5) : FVec Ideal S40 .f32) = argB2 m c :=
  StableHlo.after_of_forall_not_mem (b := Proc.devRef .tc main_arg5) _ _ (by not_written)

/-! ## What no later segment writes stays -/

section Keep
variable (b : Ref sig .tc)

/-- Through region 0 and the second stretch. -/
theorem keep3 (h0 : ∀ w, Pipeline.arrRef spec0 w ≠ b)
    (n1 : ∀ op ∈ (hostOps1 : List (HloOp τ sig (Elt Ideal))), Proc.devRef .tc b ∉ op.writes) :
    W3 m ρ c (Proc.devRef .tc b) = W1 m ρ c (Proc.devRef .tc b) :=
  (StableHlo.after_of_forall_not_mem (b := Proc.devRef .tc b) _ _ n1).trans (W2_of_ne m ρ c b h0)

/-- Through region 1 and the third stretch. -/
theorem keep5 (h1 : ∀ w, Pipeline.arrRef spec1 w ≠ b)
    (n2 : ∀ op ∈ (hostOps2 : List (HloOp τ sig (Elt Ideal))), Proc.devRef .tc b ∉ op.writes) :
    W5 m ρ c (Proc.devRef .tc b) = W3 m ρ c (Proc.devRef .tc b) :=
  (StableHlo.after_of_forall_not_mem (b := Proc.devRef .tc b) _ _ n2).trans (W4_of_ne m ρ c b h1)

/-- Through region 2 and the fourth stretch. -/
theorem keep7 (h2 : ∀ w, Pipeline.arrRef spec2 w ≠ b)
    (n3 : ∀ op ∈ (hostOps3 : List (HloOp τ sig (Elt Ideal))), Proc.devRef .tc b ∉ op.writes) :
    W7 m ρ c (Proc.devRef .tc b) = W5 m ρ c (Proc.devRef .tc b) :=
  (StableHlo.after_of_forall_not_mem (b := Proc.devRef .tc b) _ _ n3).trans (W6_of_ne m ρ c b h2)

end Keep

/-! ### The words and the factor at the boundaries where a stretch reads them -/

theorem second_src : (W2 m ρ c (Proc.devRef .tc main_v1) : IVec S1600000 32) = srcWords (argE m c) :=
  (W2_of_ne m ρ c main_v1 (by decide)).trans (first_src m ρ c)
theorem second_dst : (W2 m ρ c (Proc.devRef .tc main_v3) : IVec S1600000 32) = dstWords (argE m c) :=
  (W2_of_ne m ρ c main_v3 (by decide)).trans (first_dst m ρ c)
theorem second_factor : (W2 m ρ c (Proc.devRef .tc main_v10) : FVec Ideal S100000 .f32) = factor (argE m c) :=
  (W2_of_ne m ρ c main_v10 (by decide)).trans (first_factor m ρ c)
theorem fourth_factor : (W4 m ρ c (Proc.devRef .tc main_v10) : FVec Ideal S100000 .f32) = factor (argE m c) :=
  (W4_of_ne m ρ c main_v10 (by decide)).trans ((keep3 m ρ c main_v10 (by decide) (by not_written)).trans (first_factor m ρ c))
theorem sixth_src : (W6 m ρ c (Proc.devRef .tc main_v1) : IVec S1600000 32) = srcWords (argE m c) :=
  (W6_of_ne m ρ c main_v1 (by decide)).trans ((keep5 m ρ c main_v1 (by decide) (by not_written)).trans
    ((keep3 m ρ c main_v1 (by decide) (by not_written)).trans (first_src m ρ c)))
theorem sixth_dst : (W6 m ρ c (Proc.devRef .tc main_v3) : IVec S1600000 32) = dstWords (argE m c) :=
  (W6_of_ne m ρ c main_v3 (by decide)).trans ((keep5 m ρ c main_v3 (by decide) (by not_written)).trans
    ((keep3 m ρ c main_v3 (by decide) (by not_written)).trans (first_dst m ρ c)))
theorem sixth_factor : (W6 m ρ c (Proc.devRef .tc main_v10) : FVec Ideal S100000 .f32) = factor (argE m c) :=
  (W6_of_ne m ρ c main_v10 (by decide)).trans ((keep5 m ρ c main_v10 (by decide) (by not_written)).trans
    ((keep3 m ρ c main_v10 (by decide) (by not_written)).trans (first_factor m ρ c)))

/-! ## What region 1 finds -/

theorem entry1_rows : (V3 m ρ c main_v12 : FVec Ideal S100000x128 .f32) = W2 m ρ c (Proc.devRef .tc main_v12) :=
  StableHlo.after_of_forall_not_mem (b := Proc.devRef .tc main_v12) _ _ (by not_written)
theorem entry1_sums : (V3 m ρ c main_v22 : FVec Ideal S100000x128 .f32)
    = aggregate128 (argE m c) (W2 m ρ c (Proc.devRef .tc main_v12)) := by
  show StableHlo.after hostOps1 (W2 m ρ c) (Proc.devRef .tc main_v22) = _
  after_results
  rw [second_src, second_dst]
  rfl
theorem entry1_factor : (V3 m ρ c main_v23 : FVec Ideal S100000x1 .f32) = factorCol (argE m c) := by
  show StableHlo.after hostOps1 (W2 m ρ c) (Proc.devRef .tc main_v23) = _
  after_results
  rw [second_factor]
  rfl
theorem entry1_bias : (V3 m ρ c main_arg3 : FVec Ideal S128 .f32) = argB1 m c :=
  (keep3 m ρ c main_arg3 (by decide) (by not_written)).trans (first_arg3 m ρ c)

/-! ## What region 2 finds -/

theorem entry2_rows : (V5 m ρ c main_v24 : FVec Ideal S100000x128 .f32) = W4 m ρ c (Proc.devRef .tc main_v24) :=
  StableHlo.after_of_forall_not_mem (b := Proc.devRef .tc main_v24) _ _ (by not_written)
theorem entry2_factor : (V5 m ρ c main_v25 : FVec Ideal S100000x1 .f32) = factorCol (argE m c) := by
  show StableHlo.after hostOps2 (W4 m ρ c) (Proc.devRef .tc main_v25) = _
  after_results
  rw [fourth_factor]
  rfl
theorem entry2_weights : (V5 m ρ c main_arg4 : FVec Ideal S128x40 .f32) = argW2 m c :=
  (keep5 m ρ c main_arg4 (by decide) (by not_written)).trans
    ((keep3 m ρ c main_arg4 (by decide) (by not_written)).trans (first_arg4 m ρ c))

/-! ## What region 3 finds -/

theorem entry3_rows : (V7 m ρ c main_v26 : FVec Ideal S100000x40 .f32) = W6 m ρ c (Proc.devRef .tc main_v26) :=
  StableHlo.after_of_forall_not_mem (b := Proc.devRef .tc main_v26) _ _ (by not_written)
theorem entry3_sums : (V7 m ρ c main_v36 : FVec Ideal S100000x40 .f32)
    = aggregate40 (argE m c) (W6 m ρ c (Proc.devRef .tc main_v26)) := by
  show StableHlo.after hostOps3 (W6 m ρ c) (Proc.devRef .tc main_v36) = _
  after_results
  rw [sixth_src, sixth_dst]
  rfl
theorem entry3_factor : (V7 m ρ c main_v37 : FVec Ideal S100000x1 .f32) = factorCol (argE m c) := by
  show StableHlo.after hostOps3 (W6 m ρ c) (Proc.devRef .tc main_v37) = _
  after_results
  rw [sixth_factor]
  rfl
theorem entry3_bias : (V7 m ρ c main_arg5 : FVec Ideal S40 .f32) = argB2 m c :=
  (keep7 m ρ c main_arg5 (by decide) (by not_written)).trans
    ((keep5 m ρ c main_arg5 (by decide) (by not_written)).trans
      ((keep3 m ρ c main_arg5 (by decide) (by not_written)).trans (first_arg5 m ρ c)))

/-! ## The hidden activations are still there at the end -/

/-- Region 1's result is read by region 2 through an input window and written by nothing after region 1. -/
theorem last_hidden : W8 m ρ c (Proc.devRef .tc main_v24) = W4 m ρ c (Proc.devRef .tc main_v24) :=
  calc W8 m ρ c (Proc.devRef .tc main_v24)
    _ = W7 m ρ c (Proc.devRef .tc main_v24) := W8_of_ne m ρ c main_v24 (by decide)
    _ = W6 m ρ c (Proc.devRef .tc main_v24) := StableHlo.after_of_forall_not_mem (b := Proc.devRef .tc main_v24) _ _ (by not_written)
    _ = W5 m ρ c (Proc.devRef .tc main_v24) := (W6_arr m ρ c 0).trans (((dat2 (V5 m ρ) c).arrAt_in 0 rfl _).trans (A_eq2 (V5 m ρ) c 0))
    _ = W4 m ρ c (Proc.devRef .tc main_v24) := StableHlo.after_of_forall_not_mem (b := Proc.devRef .tc main_v24) _ _ (by not_written)

end Cert.KernelIdeal.GraphWalk

end
-- ==== Proof.KernelRun.lean ====
/-
  The kernel program's run, with its two results named.

  Every weakly fair execution of @main terminates without a fault, and in its last state every buffer that outlives
  the regions holds the contents of the last segment boundary. Read at the two result buffers, that gives the
  results; read at the six arguments, walked back through the boundaries to the launch, it gives that the arguments
  are unchanged. The composition of the four regions and four host stretches is the one the generated frame uses.
-/
import proofs.«154312_j15479062135311_2_alg».proof.Proof.Gen.KernelIdeal.Frame

set_option maxRecDepth 16384

noncomputable section

namespace Cert.KernelIdeal.GraphRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the two results at the last boundary's contents, the arguments as launched. -/
theorem run_results : θ_run defs (onTc (τ := τ) (main (F := F))) ⟨m, fun _ => 0, ρ⟩ (fun r => ∀ c : Dev nD,
      r.2.mem ((c.tc : Thread nD τ).loc main_v38) = W8 m ρ c (Proc.devRef .tc main_v38)
      ∧ r.2.mem ((c.tc : Thread nD τ).loc main_v24) = W8 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v38 (by decide)),
       h c _ (mem_uc main_v24 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.GraphRun

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibGraphLayer.lean ====
/-
  One layer of a graph convolution over the extended reals, as whole-array functions given entry by entry.

  A layer first projects every node's feature row by a weight matrix (`matProd`: entry `(r, q)` is the sum over the
  contracted position `k` of `A[r, k] · B[k, q]`), then combines, node by node, the aggregated neighbour messages
  with the node's own projected row scaled by a per-node factor, adds a bias row and rectifies
  (`nodeCombine`: entry `(r, q)` is `max (agg[r, q] + h[r, q] · s[r] + bias[q]) z`). The per-node factor comes as a
  one-column array `[a, 1]`, the bias as a one-row array `[1, b]`. Also here: the keep-dims cast of a vector to a column.
-/
import Idealize.ShloMosaic.PureOps.Ideal
import Idealize.ShloMosaic.Lib.ValueIdx
import Idealize.ShloMosaic.Lib.ValueLayout
import Idealize.ShloMosaic.Lib.Pipeline.Value

noncomputable section

namespace Cert.GraphLayer

open Idealize.ShloMosaic Idealize.ShloMosaic.ValueIdx

/-- The product of an `[a, K]` array and a `[K, b]` array: entry `(r, q)` is `∑ k, A[r, k] · B[k, q]`. -/
def matProd {a K b : ℕ} (A : (⟨2, ![a, K]⟩ : Shape).Idx → EReal) (B : (⟨2, ![K, b]⟩ : Shape).Idx → EReal) :
    (⟨2, ![a, b]⟩ : Shape).Idx → EReal :=
  fun i => ∑ k : Fin K, A (ix2 (i 0) k) * B (ix2 k (i 1))

theorem matProd_ix2 {a K b : ℕ} (A : (⟨2, ![a, K]⟩ : Shape).Idx → EReal) (B : (⟨2, ![K, b]⟩ : Shape).Idx → EReal)
    (r : Fin a) (q : Fin b) : matProd A B (ix2 r q) = ∑ k : Fin K, A (ix2 r k) * B (ix2 k q) := rfl

/-- The combination at every node: the aggregated messages plus the node's own row scaled by the node's factor, plus
    the bias row, rectified at `z`. -/
def nodeCombine {a b : ℕ} (z : EReal) (agg h : (⟨2, ![a, b]⟩ : Shape).Idx → EReal) (s : (⟨2, ![a, 1]⟩ : Shape).Idx → EReal)
    (bias : (⟨2, ![1, b]⟩ : Shape).Idx → EReal) : (⟨2, ![a, b]⟩ : Shape).Idx → EReal :=
  fun i => max ((agg i + h i * s (ix2 (i 0) (0 : Fin 1))) + bias (ix2 (0 : Fin 1) (i 1))) z

theorem nodeCombine_ix2 {a b : ℕ} (z : EReal) (agg h : (⟨2, ![a, b]⟩ : Shape).Idx → EReal) (s : (⟨2, ![a, 1]⟩ : Shape).Idx → EReal)
    (bias : (⟨2, ![1, b]⟩ : Shape).Idx → EReal) (r : Fin a) (q : Fin b) :
    nodeCombine z agg h s bias (ix2 r q)
      = max ((agg (ix2 r q) + h (ix2 r q) * s (ix2 r (0 : Fin 1))) + bias (ix2 (0 : Fin 1) q)) z := rfl

/-- The combination at an index whose column coordinate is named: the bias entry may be read at that name. -/
theorem nodeCombine_apply_of_col {a b : ℕ} (z : EReal) (agg h : (⟨2, ![a, b]⟩ : Shape).Idx → EReal) (s : (⟨2, ![a, 1]⟩ : Shape).Idx → EReal)
    (bias : (⟨2, ![1, b]⟩ : Shape).Idx → EReal) (i : (⟨2, ![a, b]⟩ : Shape).Idx) (q : Fin b) (hq : q = i 1) :
    max ((agg i + h i * s (ix2 (i 0) (0 : Fin 1))) + bias (ix2 (0 : Fin 1) q)) z = nodeCombine z agg h s bias i := by
  subst hq; rfl

/-- An `[a]` array cast to a column `[a, 1]` reads, at `(r, u)`, the operand at `r`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Cert.GraphLayer

end
-- ==== Proof.KernelProject.lean ====
/-
  The two projection regions of a two-layer graph convolution, each read as ONE whole-array function of its inputs.

  A projection region multiplies the node features X [n, k] by a weight matrix W [k, f] and scales row r of the product
  by that node's factor D[r, 0]: entry (r, q) of its result is (∑ j, X[r, j] · W[j, q]) · D[r, 0]
  (`Cert.GraphConv.matScale`). The region walks the n = 100000 rows in 20 blocks of 5000 rows; at each block it reads the
  block's rows of X and of D and the whole of W, and writes the block's rows of the result. Here: the block's arithmetic
  at an entry (the rounding to the narrower float format is the identity on the extended reals, the product into a zero
  accumulator is the sum over the contracted position, the factor column is broadcast along the lanes); what a block
  writes back, as the block's rows of `matScale` of the whole arrays (row p of block t is row 5000·t + p); the blocks
  cover every row (row r lies in block r / 5000); hence the result array.
-/
import proofs.«154312_j15479062135311_2_alg».proof.Proof.Gen.KernelIdeal.Frame
import proofs.«154312_j15479062135311_2_alg».proof.Proof.GraphConvSpec
import proofs.«154312_j15479062135311_2_alg».proof.Proof.LibColumnBroadcast
import proofs.«154312_j15479062135311_2_alg».proof.Proof.LibRowLayers
import proofs.«154312_j15479062135311_2_alg».proof.Proof.LibGraphLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Project

open Cert.KernelIdeal Cert.KernelIdeal.Gen Idealize.ShloMosaic Idealize.ShloMosaic.ValueIdx
open Idealize.ShloMosaic.TcCoe
open Idealize.ShloMosaic.Pipeline (Dat)
open Cert.RowLayers Cert.ColumnBroadcast

/-- The zero offsets of a whole-block access, however spelt. -/
theorem zeroOffsets : (![0, 0] : Fin 2 → Nat) = fun _ => 0 := funext fun a => by fin_cases a <;> rfl

/-! ## The first projection: [5000, 128] rows times [128, 128] weights -/

/-- The first projection's product contracts the features' column axis with the weights' row axis. -/
theorem rowsTimesCols0 : RowsTimesCols dot_S5000x128_S128x128_S5000x128_1_0_0_1_n_n where
  rank := rfl
  size := rfl
  lhs0 := fun j q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  lhs1 := fun j q => dot_S5000x128_S128x128_S5000x128_1_0_0_1_n_n.lhsIdx_val_of_single rfl j q
  rhs0 := fun j q => dot_S5000x128_S128x128_S5000x128_1_0_0_1_n_n.rhsIdx_val_of_single rfl j q
  rhs1 := fun j q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- The block's arithmetic at entry (p, q): the block's row p of the features times column q of the weights, times the
    block's factor at row p. -/
theorem blockValue0 (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ j : Fin 128, x0 (ix2 p j) * x1 (ix2 j q)) * x2 (ix2 p (0 : Fin 1)) := by
  unfold k0_pay1
  have h1 := congrFun (rowOf_matmul_zero rowsTimesCols0 none
    (truncf .bf16 x0 bitsLt_bf16_f32 : FVec Ideal S5000x128 .bf16) (truncf .bf16 x1 bitsLt_bf16_f32 : FVec Ideal S128x128 .bf16) p) q
  have h2 := broadcastTo_a1_ab_apply (shapeCast S5000x1 x2 shapeCasts_S5000x1_S5000x1) broadcasts_S5000x1_S5000x128 p q
  refine (congrArg₂ (· * ·) h1 h2).trans ?_
  rw [shapeCast_self]
  rfl

/-- Where each window's block sits at point t: the features', the factor column's and the result's at block row t, all
    columns; the weights' window is the whole array at every point. Decided over the 20 points. -/
theorem blockIndices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A block's entry as an entry of the whole-array function: when the block's feature rows, the weights and the block's
    factors are read off whole arrays X, W, D at the row i 0 and the column i 1, the block's arithmetic at y is
    `matScale X W D` at i. -/
theorem blockEntry0 (X : S100000x128.Idx → EReal) (W : S128x128.Idx → EReal) (D : S100000x1.Idx → EReal)
    (x0 : Vec Ideal S5000x128 .f32) (x1 : Vec Ideal S128x128 .f32) (x2 : Vec Ideal S5000x1 .f32)
    (y : S5000x128.Idx) (i : S100000x128.Idx)
    (hx0 : ∀ j : Fin 128, x0 (ix2 (y 0) j) = X (ix2 (i 0) j))
    (hx1 : ∀ j : Fin 128, x1 (ix2 j (y 1)) = W (ix2 j (i 1)))
    (hx2 : x2 (ix2 (y 0) (0 : Fin 1)) = D (ix2 (i 0) (0 : Fin 1))) :
    k0_pay1 (F := Ideal) x0 x1 x2 y = Cert.GraphConv.matScale X W D i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hx0' : ∀ j : Fin 128, x0 (ix2 p j) = X (ix2 r j) := hx0
  have hx1' : ∀ j : Fin 128, x1 (ix2 j q) = W (ix2 j s) := hx1
  have hx2' : x2 (ix2 p (0 : Fin 1)) = D (ix2 r (0 : Fin 1)) := hx2
  rw [blockValue0, Cert.GraphConv.matScale_ix2, hx2']
  refine congrArg (· * D (ix2 r (0 : Fin 1))) (Finset.sum_congr rfl fun j _ => ?_)
  rw [hx0' j, hx1' j]

section Region0
variable (V : (c : Dev nD) → (b : Ref sig .tc) → Buf (Elt Ideal) ((c : Thread nD τ).loc b)) (c : Dev nD)

/-- WHAT POINT t WRITES BACK: rows 5000·t … 5000·t + 4999 of `matScale` of the arrays as the region finds them. -/
theorem flushed0 (t : Fin cfg0.N) :
    (dat0 (F := Ideal) V c).flushed 3 t
      = ((cfg0.win 3).blk t).view.read (Elt Ideal)
          (Cert.GraphConv.matScale (V c main_arg0 : S100000x128.Idx → EReal) (V c main_arg2 : S128x128.Idx → EReal) (V c main_v11 : S100000x1.Idx → EReal)) := by
  show (cfg0.win 3).cut (grid0.coords t) ((dat0 V c).after 3 t) = _
  rw [after0_3]
  unfold out0_3
  rw [View.canon_unit_zero zeroOffsets]
  simp only [View.ld_unit_zero (S := S5000x128) zeroOffsets, View.ld_unit_zero (S := S128x128) zeroOffsets, View.ld_unit_zero (S := S5000x1) zeroOffsets]
  obtain ⟨e00, e01, e10, e11, e20, e21, e30, e31⟩ := blockIndices0 t
  funext y
  show k0_pay1 (F := Ideal) (iblk0 V c 0 t) (iblk0 V c 1 t) (iblk0 V c 2 t) y
      = Cert.GraphConv.matScale (V c main_arg0 : S100000x128.Idx → EReal) (V c main_arg2 : S128x128.Idx → EReal)
          (V c main_v11 : S100000x1.Idx → EReal) (((cfg0.win 3).blk t).view.emb y)
  refine blockEntry0 _ _ _ _ _ _ y _ (fun j => ?_) (fun j => ?_) ?_
  · show V c main_arg0 (((cfg0.win 0).blk t).view.emb (ix2 (y 0) j)) = V c main_arg0 (ix2 (((cfg0.win 3).blk t).view.emb y 0) j)
    refine congrArg _ (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 128 + 1 * j.val = j.val; omega
  · show V c main_arg2 (((cfg0.win 1).blk t).view.emb (ix2 j (y 1))) = V c main_arg2 (ix2 j (((cfg0.win 3).blk t).view.emb y 1))
    refine congrArg _ (funext fun a => Fin.ext ?_)
    match a with
    | ⟨0, _⟩ => show win0_1.index t (0 : Fin 2) * 128 + 1 * j.val = j.val; omega
    | ⟨1, _⟩ => show win0_1.index t (1 : Fin 2) * 128 + 1 * (y 1).val = win0_3.index t (1 : Fin 2) * 128 + 1 * (y 1).val; omega
  · show V c main_v11 (((cfg0.win 2).blk t).view.emb (ix2 (y 0) (0 : Fin 1))) = V c main_v11 (ix2 (((cfg0.win 3).blk t).view.emb y 0) (0 : Fin 1))
    refine congrArg _ (funext fun a => Fin.ext ?_)
    match a with
    | ⟨0, _⟩ => show win0_2.index t (0 : Fin 2) * 5000 + 1 * (y 0).val = win0_3.index t (0 : Fin 2) * 5000 + 1 * (y 0).val; omega
    | ⟨1, _⟩ => show win0_2.index t (1 : Fin 2) * 1 + 1 * 0 = 0; omega

/-- An index of the result array lies in point t's block iff, on each axis, its coordinate lies in the block's range. -/
theorem mem_block0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- THE BLOCKS COVER THE ARRAY: row r lies in the block of point r / 5000, which writes its block back. -/
theorem covered0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := by decide
  have ht : (i 0).val / 5000 < cfg0.N := by rw [hN]; omega
  obtain ⟨-, -, -, -, -, -, e30, e31⟩ := blockIndices0 ⟨(i 0).val / 5000, ht⟩
  refine ⟨⟨(i 0).val / 5000, ht⟩, flush0_3 _, ?_⟩
  rw [mem_block0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e31]; omega

/-- THE RESULT ARRAY of the first projection after the run: `matScale` of the features, the first weights and the
    factor column as the region finds them. -/
theorem arr0 : (dat0 (F := Ideal) V c).arrAt 3 cfg0.N
      = Cert.GraphConv.matScale (V c main_arg0 : S100000x128.Idx → EReal) (V c main_arg2 : S128x128.Idx → EReal) (V c main_v11 : S100000x1.Idx → EReal) :=
  (dat0 (F := Ideal) V c).arrAt_eq_of_cover 3 _ (fun t _ => flushed0 V c t) covered0

end Region0

/-! ## The second projection: [5000, 128] rows times [128, 40] weights -/

/-- The second projection's product contracts the features' column axis with the weights' row axis. -/
theorem rowsTimesCols2 : RowsTimesCols dot_S5000x128_S128x40_S5000x40_1_0_0_1_n_n where
  rank := rfl
  size := rfl
  lhs0 := fun j q => by
    unfold DotDims.lhsIdx
    rw [dif_neg (show ¬(0 : Fin S5000x128.rank) ∈ dot_S5000x128_S128x40_S5000x40_1_0_0_1_n_n.lhsBatch by decide),
      dif_pos (show (0 : Fin S5000x128.rank) ∈ dot_S5000x128_S128x40_S5000x40_1_0_0_1_n_n.lhsNonContracting by decide)]
    rfl
  lhs1 := fun j q => dot_S5000x128_S128x40_S5000x40_1_0_0_1_n_n.lhsIdx_val_of_single rfl j q
  rhs0 := fun j q => dot_S5000x128_S128x40_S5000x40_1_0_0_1_n_n.rhsIdx_val_of_single rfl j q
  rhs1 := fun j q => by
    unfold DotDims.rhsIdx
    rw [dif_neg (show ¬(1 : Fin S128x40.rank) ∈ dot_S5000x128_S128x40_S5000x40_1_0_0_1_n_n.rhsBatch by decide),
      dif_pos (show (1 : Fin S128x40.rank) ∈ dot_S5000x128_S128x40_S5000x40_1_0_0_1_n_n.rhsNonContracting by decide)]
    rfl

/-- The block's arithmetic at entry (p, q): the block's row p of the hidden features times column q of the weights, times
    the block's factor at row p (the features pass through a cast to their own shape first, which changes nothing). -/
theorem blockValue2 (x0 : Vec Ideal S5000x128 .f32) (x1 : Vec Ideal S128x40 .f32) (x2 : Vec Ideal S5000x1 .f32)
    (p : Fin 5000) (q : Fin 40) :
    k2_pay1 (F := Ideal) x0 x1 x2 (ix2 p q) = (∑ j : Fin 128, x0 (ix2 p j) * x1 (ix2 j q)) * x2 (ix2 p (0 : Fin 1)) := by
  unfold k2_pay1
  have h1 := congrFun (rowOf_matmul_zero rowsTimesCols2 none
    (truncf .bf16 (shapeCast S5000x128 x0 shapeCasts_S5000x128_S5000x128) bitsLt_bf16_f32 : FVec Ideal S5000x128 .bf16)
    (truncf .bf16 x1 bitsLt_bf16_f32 : FVec Ideal S128x40 .bf16) p) q
  have h2 := broadcastTo_a1_ab_apply (shapeCast S5000x1 x2 shapeCasts_S5000x1_S5000x1) broadcasts_S5000x1_S5000x40 p q
  refine (congrArg₂ (· * ·) h1 h2).trans ?_
  rw [shapeCast_self, shapeCast_self]
  rfl

/-- Where each window's block sits at point t: the features', the factor column's and the result's at block row t, all
    columns; the weights' window is the whole array at every point. Decided over the 20 points. -/
theorem blockIndices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- A block's entry as an entry of the whole-array function: when the block's feature rows, the weights and the block's
    factors are read off whole arrays X, W, D at the row i 0 and the column i 1, the block's arithmetic at y is
    `matScale X W D` at i. -/
theorem blockEntry2 (X : S100000x128.Idx → EReal) (W : S128x40.Idx → EReal) (D : S100000x1.Idx → EReal)
    (x0 : Vec Ideal S5000x128 .f32) (x1 : Vec Ideal S128x40 .f32) (x2 : Vec Ideal S5000x1 .f32)
    (y : S5000x40.Idx) (i : S100000x40.Idx)
    (hx0 : ∀ j : Fin 128, x0 (ix2 (y 0) j) = X (ix2 (i 0) j))
    (hx1 : ∀ j : Fin 128, x1 (ix2 j (y 1)) = W (ix2 j (i 1)))
    (hx2 : x2 (ix2 (y 0) (0 : Fin 1)) = D (ix2 (i 0) (0 : Fin 1))) :
    k2_pay1 (F := Ideal) x0 x1 x2 y = Cert.GraphConv.matScale X W D i := by
  obtain ⟨p, q, rfl⟩ : ∃ (p : Fin 5000) (q : Fin 40), y = ix2 p q := ⟨y 0, y 1, eq_ix2 y⟩
  obtain ⟨r, s, rfl⟩ : ∃ (r : Fin 100000) (s : Fin 40), i = ix2 r s := ⟨i 0, i 1, eq_ix2 i⟩
  have hx0' : ∀ j : Fin 128, x0 (ix2 p j) = X (ix2 r j) := hx0
  have hx1' : ∀ j : Fin 128, x1 (ix2 j q) = W (ix2 j s) := hx1
  have hx2' : x2 (ix2 p (0 : Fin 1)) = D (ix2 r (0 : Fin 1)) := hx2
  rw [blockValue2, Cert.GraphConv.matScale_ix2, hx2']
  refine congrArg (· * D (ix2 r (0 : Fin 1))) (Finset.sum_congr rfl fun j _ => ?_)
  rw [hx0' j, hx1' j]

section Region2
variable (V : (c : Dev nD) → (b : Ref sig .tc) → Buf (Elt Ideal) ((c : Thread nD τ).loc b)) (c : Dev nD)

/-- WHAT POINT t WRITES BACK: rows 5000·t … 5000·t + 4999 of `matScale` of the arrays as the region finds them. -/
theorem flushed2 (t : Fin cfg2.N) :
    (dat2 (F := Ideal) V c).flushed 3 t
      = ((cfg2.win 3).blk t).view.read (Elt Ideal)
          (Cert.GraphConv.matScale (V c main_v24 : S100000x128.Idx → EReal) (V c main_arg4 : S128x40.Idx → EReal) (V c main_v25 : S100000x1.Idx → EReal)) := by
  show (cfg2.win 3).cut (grid2.coords t) ((dat2 V c).after 3 t) = _
  rw [after2_3]
  unfold out2_3
  rw [View.canon_unit_zero zeroOffsets]
  simp only [View.ld_unit_zero (S := S5000x128) zeroOffsets, View.ld_unit_zero (S := S128x40) zeroOffsets, View.ld_unit_zero (S := S5000x1) zeroOffsets]
  obtain ⟨e00, e01, e10, e11, e20, e21, e30, e31⟩ := blockIndices2 t
  funext y
  show k2_pay1 (F := Ideal) (iblk2 V c 0 t) (iblk2 V c 1 t) (iblk2 V c 2 t) y
      = Cert.GraphConv.matScale (V c main_v24 : S100000x128.Idx → EReal) (V c main_arg4 : S128x40.Idx → EReal)
          (V c main_v25 : S100000x1.Idx → EReal) (((cfg2.win 3).blk t).view.emb y)
  refine blockEntry2 _ _ _ _ _ _ y _ (fun j => ?_) (fun j => ?_) ?_
  · show V c main_v24 (((cfg2.win 0).blk t).view.emb (ix2 (y 0) j)) = V c main_v24 (ix2 (((cfg2.win 3).blk t).view.emb y 0) j)
    refine congrArg _ (funext fun a => Fin.ext ?_)
    match a with
    | ⟨0, _⟩ => show win2_0.index t (0 : Fin 2) * 5000 + 1 * (y 0).val = win2_3.index t (0 : Fin 2) * 5000 + 1 * (y 0).val; omega
    | ⟨1, _⟩ => show win2_0.index t (1 : Fin 2) * 128 + 1 * j.val = j.val; omega
  · show V c main_arg4 (((cfg2.win 1).blk t).view.emb (ix2 j (y 1))) = V c main_arg4 (ix2 j (((cfg2.win 3).blk t).view.emb y 1))
    refine congrArg _ (funext fun a => Fin.ext ?_)
    match a with
    | ⟨0, _⟩ => show win2_1.index t (0 : Fin 2) * 128 + 1 * j.val = j.val; omega
    | ⟨1, _⟩ => show win2_1.index t (1 : Fin 2) * 40 + 1 * (y 1).val = win2_3.index t (1 : Fin 2) * 40 + 1 * (y 1).val; omega
  · show V c main_v25 (((cfg2.win 2).blk t).view.emb (ix2 (y 0) (0 : Fin 1))) = V c main_v25 (ix2 (((cfg2.win 3).blk t).view.emb y 0) (0 : Fin 1))
    refine congrArg _ (funext fun a => Fin.ext ?_)
    match a with
    | ⟨0, _⟩ => show win2_2.index t (0 : Fin 2) * 5000 + 1 * (y 0).val = win2_3.index t (0 : Fin 2) * 5000 + 1 * (y 0).val; omega
    | ⟨1, _⟩ => show win2_2.index t (1 : Fin 2) * 1 + 1 * 0 = 0; omega

/-- An index of the result array lies in point t's block iff, on each axis, its coordinate lies in the block's range. -/
theorem mem_block2 (t : Fin cfg2.N) (i : S100000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v26).slice (win2_3.rect t)).set ↔ _
  rw [View.set_slice_whole, Rect.mem_set_unit]
  exact Iff.rfl

/-- THE BLOCKS COVER THE ARRAY: row r lies in the block of point r / 5000, which writes its block back. -/
theorem covered2 (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 20 := by decide
  have ht : (i 0).val / 5000 < cfg2.N := by rw [hN]; omega
  obtain ⟨-, -, -, -, -, -, e30, e31⟩ := blockIndices2 ⟨(i 0).val / 5000, ht⟩
  refine ⟨⟨(i 0).val / 5000, ht⟩, flush2_3 _, ?_⟩
  rw [mem_block2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, ht⟩ (1 : Fin 2) * 40 ≤ (i 1).val ∧ (i 1).val < win2_3.index ⟨(i 0).val / 5000, ht⟩ (1 : Fin 2) * 40 + 40
    rw [e31]; omega

/-- THE RESULT ARRAY of the second projection after the run: `matScale` of the hidden features, the second weights
    and the factor column as the region finds them. -/
theorem arr2 : (dat2 (F := Ideal) V c).arrAt 3 cfg2.N
      = Cert.GraphConv.matScale (V c main_v24 : S100000x128.Idx → EReal) (V c main_arg4 : S128x40.Idx → EReal) (V c main_v25 : S100000x1.Idx → EReal) :=
  (dat2 (F := Ideal) V c).arrAt_eq_of_cover 3 _ (fun t _ => flushed2 V c t) covered2

end Region2

end Cert.KernelIdeal.Project

end
-- ==== Proof.KernelCombine.lean ====
/-
  The two combination regions of a two-layer graph convolution, read as whole-array functions over the extended reals.

  A combination region walks the node rows in 20 blocks of 5000 rows. At a block it reads the aggregated sums S,
  the nodes' own scaled rows H (same rows, all columns), the factor column D (same rows, its one column) and the whole
  bias vector b, and writes, at row p and column q of the block, (S[p, q] + H[p, q]) · D[p, 0] + b[q] — the first
  combination region also takes the maximum with a threshold z. Block t covers rows 5000·t … 5000·t + 4999 of every
  array and all their columns, so the row that covers row r is r / 5000, the blocks tile the result array, and the
  array ends holding `combine S H D b` (respectively `combineRelu z S H D b`) of the arrays the region found.

  Per region: the body's arithmetic at an entry of a block (`payload…_apply`), where each window's block sits in its
  array (`index_facts…`, `block…_apply`), what a point writes back as a block of the whole-array function
  (`written…`), the blocks' membership and cover (`mem_block…`, `cover…`), and the array after the run (`arr…`).
-/
import proofs.«154312_j15479062135311_2_alg».proof.Proof.Gen.KernelIdeal.Frame
import proofs.«154312_j15479062135311_2_alg».proof.Proof.GraphConvSpec
import proofs.«154312_j15479062135311_2_alg».proof.Proof.LibColumnBroadcast
import proofs.«154312_j15479062135311_2_alg».proof.Proof.LibRowLayers
import proofs.«154312_j15479062135311_2_alg».proof.Proof.LibGraphLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Combine

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a rank-2 and of a rank-1 whole-buffer access, however they are spelt. -/
theorem zero2 : (![0, 0] : Fin 2 → Nat) = fun _ => 0 := funext fun a => by fin_cases a <;> rfl
theorem zero1 : (![0] : Fin 1 → Nat) = fun _ => 0 := funext fun a => by fin_cases a; rfl

/-! ## The second combination region (40 columns, no threshold) -/

/-- The body's arithmetic at entry (p, q) of a block: the two row blocks added, scaled by the factor column's entry of
    row p, plus the bias entry of column q. -/
theorem payload3_apply (x0 x1 : Vec Ideal S5000x40 .f32) (x2 : Vec Ideal S5000x1 .f32) (x3 : Vec Ideal S40 .f32)
    (p : Fin 5000) (q : Fin 40) :
    k3_pay1 x0 x1 x2 x3 (ix2 p q) = (x0 (ix2 p q) + x1 (ix2 p q)) * x2 (ix2 p (0 : Fin 1)) + x3 (ix1 q) := by
  unfold k3_pay1
  rw [addf_apply, mulf_apply, addf_apply, shapeCast_self, shapeCast_self, shapeCast_self,
    Cert.ColumnBroadcast.broadcastTo_a1_ab_apply, broadcastTo_1b_ab_apply, shapeCast_a_1a_apply]

/-- Where the blocks sit, decided over the 20 points: the four row-blocked windows are at block row t and block
    column 0, the bias window always at block 0. -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b)) (c : Dev nD)

/-- The block of the aggregated sums at point t is rows 5000·t … of that array. -/
theorem block3_0_apply (t : Fin cfg3.N) (p : Fin 5000) (q : Fin 40) (r : Fin 100000) (hr : r.val = 5000 * t.val + p.val) :
    (iblk3 V c 0 t : Vec Ideal S5000x40 .f32) (ix2 p q) = (V c main_v36 : S100000x40.Idx → EReal) (ix2 r q) := by
  obtain ⟨e0, e1, -⟩ := index_facts3 t
  unfold iblk3
  rw [View.read_apply]
  show V c main_v36 _ = V c main_v36 _
  congr 1
  funext a
  apply Fin.ext
  match a with
  | ⟨0, _⟩ => show win3_0.index t (0 : Fin 2) * 5000 + 1 * p.val = r.val; omega
  | ⟨1, _⟩ => show win3_0.index t (1 : Fin 2) * 40 + 1 * q.val = q.val; omega

/-- The block of the nodes' own scaled rows at point t is the same rows of that array. -/
theorem block3_1_apply (t : Fin cfg3.N) (p : Fin 5000) (q : Fin 40) (r : Fin 100000) (hr : r.val = 5000 * t.val + p.val) :
    (iblk3 V c 1 t : Vec Ideal S5000x40 .f32) (ix2 p q) = (V c main_v26 : S100000x40.Idx → EReal) (ix2 r q) := by
  obtain ⟨-, -, e0, e1, -⟩ := index_facts3 t
  unfold iblk3
  rw [View.read_apply]
  show V c main_v26 _ = V c main_v26 _
  congr 1
  funext a
  apply Fin.ext
  match a with
  | ⟨0, _⟩ => show win3_1.index t (0 : Fin 2) * 5000 + 1 * p.val = r.val; omega
  | ⟨1, _⟩ => show win3_1.index t (1 : Fin 2) * 40 + 1 * q.val = q.val; omega

/-- The block of the factor column at point t is the same rows of the column. -/
theorem block3_2_apply (t : Fin cfg3.N) (p : Fin 5000) (u : Fin 1) (r : Fin 100000) (hr : r.val = 5000 * t.val + p.val) :
    (iblk3 V c 2 t : Vec Ideal S5000x1 .f32) (ix2 p u) = (V c main_v37 : S100000x1.Idx → EReal) (ix2 r u) := by
  obtain ⟨-, -, -, -, e0, e1, -⟩ := index_facts3 t
  unfold iblk3
  rw [View.read_apply]
  show V c main_v37 _ = V c main_v37 _
  congr 1
  funext a
  apply Fin.ext
  match a with
  | ⟨0, _⟩ => show win3_2.index t (0 : Fin 2) * 5000 + 1 * p.val = r.val; omega
  | ⟨1, _⟩ => show win3_2.index t (1 : Fin 2) * 1 + 1 * u.val = u.val; omega

/-- The bias window's block is the whole bias vector at every point. -/
theorem block3_3_apply (t : Fin cfg3.N) (q : Fin 40) :
    (iblk3 V c 3 t : Vec Ideal S40 .f32) (ix1 q) = (V c main_arg5 : S40.Idx → EReal) (ix1 q) := by
  obtain ⟨-, -, -, -, -, -, e0, -⟩ := index_facts3 t
  unfold iblk3
  rw [View.read_apply]
  show V c main_arg5 _ = V c main_arg5 _
  congr 1
  funext a
  apply Fin.ext
  match a with
  | ⟨0, _⟩ => show win3_3.index t (0 : Fin 1) * 40 + 1 * q.val = q.val; omega

/-- Entry (p, q) of the result's block at point t is entry (5000·t + p, q) of the result array. -/
theorem block3_4_emb (t : Fin cfg3.N) (p : Fin 5000) (q : Fin 40) (r : Fin 100000) (hr : r.val = 5000 * t.val + p.val) :
    ((cfg3.win 4).blk t).view.emb (ix2 p q) = (ix2 r q : S100000x40.Idx) := by
  obtain ⟨-, -, -, -, -, -, -, e0, e1⟩ := index_facts3 t
  funext a
  apply Fin.ext
  match a with
  | ⟨0, _⟩ => show win3_4.index t (0 : Fin 2) * 5000 + 1 * p.val = r.val; omega
  | ⟨1, _⟩ => show win3_4.index t (1 : Fin 2) * 40 + 1 * q.val = q.val; omega

/-- What point t writes back is block t of the combination of the arrays the region found. -/
theorem written3 (t : Fin cfg3.N) :
    (dat3 (F := Ideal) V c).flushed 4 t = ((cfg3.win 4).blk t).view.read (Elt Ideal)
      (Cert.GraphConv.combine (V c main_v36 : S100000x40.Idx → EReal) (V c main_v26 : S100000x40.Idx → EReal)
        (V c main_v37 : S100000x1.Idx → EReal) (V c main_arg5 : S40.Idx → EReal)) := by
  show (cfg3.win 4).cut (grid3.coords t) ((dat3 V c).after 4 t) = _
  rw [after3_4]
  unfold out3_4
  rw [View.canon_unit_zero zero2]
  simp only [View.ld_unit_zero (S := S5000x40) zero2, View.ld_unit_zero (S := S5000x1) zero2, View.ld_unit_zero (S := S40) zero1]
  refine funext fun (j : S5000x40.Idx) => ?_
  obtain ⟨p, q, rfl⟩ : ∃ (p : Fin 5000) (q : Fin 40), j = ix2 p q := ⟨j 0, j 1, eq_ix2 j⟩
  have hN : cfg3.N = 20 := rfl
  have ht : t.val < 20 := hN ▸ t.isLt
  have hr : 5000 * t.val + p.val < 100000 := by have := p.isLt; omega
  refine (payload3_apply (iblk3 V c 0 t) (iblk3 V c 1 t) (iblk3 V c 2 t) (iblk3 V c 3 t) p q).trans ?_
  rw [block3_0_apply V c t p q ⟨_, hr⟩ rfl, block3_1_apply V c t p q ⟨_, hr⟩ rfl, block3_2_apply V c t p 0 ⟨_, hr⟩ rfl,
    block3_3_apply V c t q]
  show _ = Cert.GraphConv.combine _ _ _ _ (((cfg3.win 4).blk t).view.emb (ix2 p q))
  rw [block3_4_emb t p q ⟨_, hr⟩ rfl, Cert.GraphConv.combine_ix2]

/-- An index of the result array is in point t's block iff each coordinate is in the block's range on its axis. -/
theorem mem_block3 (t : Fin cfg3.N) (i : S100000x40.Idx) :
    i ∈ ((cfg3.win 4).blk t).view.set ↔ ∀ a : Fin 2, win3_4.index t a * S5000x40.size a ≤ (i a).val
      ∧ (i a).val < win3_4.index t a * S5000x40.size a + S5000x40.size a := by
  show i ∈ ((View.whole main_v38).slice (win3_4.rect t)).set ↔ _
  rw [View.set_slice_whole, Rect.mem_set_unit]
  exact Iff.rfl

/-- The blocks tile the result array: row r is in the block of point r / 5000. -/
theorem cover3 (i : S100000x40.Idx) :
    ∃ t : Fin cfg3.N, (cfg3.win 4).flush t = true ∧ i ∈ ((cfg3.win 4).blk t).view.set := by
  have hi0 : (i 0).val < 100000 := (i 0).isLt
  have hi1 : (i 1).val < 40 := (i 1).isLt
  have hN : cfg3.N = 20 := rfl
  let t : Fin cfg3.N := ⟨(i 0).val / 5000, by rw [hN]; omega⟩
  have htv : t.val = (i 0).val / 5000 := rfl
  obtain ⟨-, -, -, -, -, -, -, e0, e1⟩ := index_facts3 t
  refine ⟨t, flush3_4 t, ?_⟩
  rw [mem_block3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 40 ≤ (i 1).val ∧ (i 1).val < win3_4.index t (1 : Fin 2) * 40 + 40; omega

/-- THE RESULT ARRAY of the second combination region after its run: the combination of the arrays it found. -/
theorem arr3 : (dat3 (F := Ideal) V c).arrAt 4 cfg3.N
    = Cert.GraphConv.combine (V c main_v36 : S100000x40.Idx → EReal) (V c main_v26 : S100000x40.Idx → EReal)
        (V c main_v37 : S100000x1.Idx → EReal) (V c main_arg5 : S40.Idx → EReal) :=
  (dat3 (F := Ideal) V c).arrAt_eq_of_cover 4 _ (fun t _ => written3 V c t) cover3

/-! ## The first combination region (128 columns, rectified at the threshold) -/

/-- The body's arithmetic at entry (p, q) of a block: the two row blocks added, scaled by the factor column's entry of
    row p, plus the bias entry of column q, and the maximum of that with the threshold (the float pattern of 0.0,
    splat over the block). -/
theorem payload1_apply (x0 x1 : Vec Ideal S5000x128 .f32) (x2 : Vec Ideal S5000x1 .f32) (x3 : Vec Ideal S128 .f32)
    (p : Fin 5000) (q : Fin 128) :
    k1_pay1 x0 x1 x2 x3 (ix2 p q)
      = max ((x0 (ix2 p q) + x1 (ix2 p q)) * x2 (ix2 p (0 : Fin 1)) + x3 (ix1 q)) (Ideal.ofBits .f32 0x00000000#32) := by
  unfold k1_pay1
  rw [maximumf_apply, broadcast_apply, addf_apply, mulf_apply, addf_apply, shapeCast_self, shapeCast_self, shapeCast_self,
    Cert.ColumnBroadcast.broadcastTo_a1_ab_apply, broadcastTo_1b_ab_apply, shapeCast_a_1a_apply]
  rfl

/-- Where the blocks sit, decided over the 20 points: the four row-blocked windows are at block row t and block
    column 0, the bias window always at block 0. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The block of the aggregated sums at point t is rows 5000·t … of that array. -/
theorem block1_0_apply (t : Fin cfg1.N) (p : Fin 5000) (q : Fin 128) (r : Fin 100000) (hr : r.val = 5000 * t.val + p.val) :
    (iblk1 V c 0 t : Vec Ideal S5000x128 .f32) (ix2 p q) = (V c main_v22 : S100000x128.Idx → EReal) (ix2 r q) := by
  obtain ⟨e0, e1, -⟩ := index_facts1 t
  unfold iblk1
  rw [View.read_apply]
  show V c main_v22 _ = V c main_v22 _
  congr 1
  funext a
  apply Fin.ext
  match a with
  | ⟨0, _⟩ => show win1_0.index t (0 : Fin 2) * 5000 + 1 * p.val = r.val; omega
  | ⟨1, _⟩ => show win1_0.index t (1 : Fin 2) * 128 + 1 * q.val = q.val; omega

/-- The block of the nodes' own scaled rows at point t is the same rows of that array. -/
theorem block1_1_apply (t : Fin cfg1.N) (p : Fin 5000) (q : Fin 128) (r : Fin 100000) (hr : r.val = 5000 * t.val + p.val) :
    (iblk1 V c 1 t : Vec Ideal S5000x128 .f32) (ix2 p q) = (V c main_v12 : S100000x128.Idx → EReal) (ix2 r q) := by
  obtain ⟨-, -, e0, e1, -⟩ := index_facts1 t
  unfold iblk1
  rw [View.read_apply]
  show V c main_v12 _ = V c main_v12 _
  congr 1
  funext a
  apply Fin.ext
  match a with
  | ⟨0, _⟩ => show win1_1.index t (0 : Fin 2) * 5000 + 1 * p.val = r.val; omega
  | ⟨1, _⟩ => show win1_1.index t (1 : Fin 2) * 128 + 1 * q.val = q.val; omega

/-- The block of the factor column at point t is the same rows of the column. -/
theorem block1_2_apply (t : Fin cfg1.N) (p : Fin 5000) (u : Fin 1) (r : Fin 100000) (hr : r.val = 5000 * t.val + p.val) :
    (iblk1 V c 2 t : Vec Ideal S5000x1 .f32) (ix2 p u) = (V c main_v23 : S100000x1.Idx → EReal) (ix2 r u) := by
  obtain ⟨-, -, -, -, e0, e1, -⟩ := index_facts1 t
  unfold iblk1
  rw [View.read_apply]
  show V c main_v23 _ = V c main_v23 _
  congr 1
  funext a
  apply Fin.ext
  match a with
  | ⟨0, _⟩ => show win1_2.index t (0 : Fin 2) * 5000 + 1 * p.val = r.val; omega
  | ⟨1, _⟩ => show win1_2.index t (1 : Fin 2) * 1 + 1 * u.val = u.val; omega

/-- The bias window's block is the whole bias vector at every point. -/
theorem block1_3_apply (t : Fin cfg1.N) (q : Fin 128) :
    (iblk1 V c 3 t : Vec Ideal S128 .f32) (ix1 q) = (V c main_arg3 : S128.Idx → EReal) (ix1 q) := by
  obtain ⟨-, -, -, -, -, -, e0, -⟩ := index_facts1 t
  unfold iblk1
  rw [View.read_apply]
  show V c main_arg3 _ = V c main_arg3 _
  congr 1
  funext a
  apply Fin.ext
  match a with
  | ⟨0, _⟩ => show win1_3.index t (0 : Fin 1) * 128 + 1 * q.val = q.val; omega

/-- Entry (p, q) of the result's block at point t is entry (5000·t + p, q) of the result array. -/
theorem block1_4_emb (t : Fin cfg1.N) (p : Fin 5000) (q : Fin 128) (r : Fin 100000) (hr : r.val = 5000 * t.val + p.val) :
    ((cfg1.win 4).blk t).view.emb (ix2 p q) = (ix2 r q : S100000x128.Idx) := by
  obtain ⟨-, -, -, -, -, -, -, e0, e1⟩ := index_facts1 t
  funext a
  apply Fin.ext
  match a with
  | ⟨0, _⟩ => show win1_4.index t (0 : Fin 2) * 5000 + 1 * p.val = r.val; omega
  | ⟨1, _⟩ => show win1_4.index t (1 : Fin 2) * 128 + 1 * q.val = q.val; omega

/-- What point t writes back is block t of the rectified combination of the arrays the region found. -/
theorem written1 (t : Fin cfg1.N) :
    (dat1 (F := Ideal) V c).flushed 4 t = ((cfg1.win 4).blk t).view.read (Elt Ideal)
      (Cert.GraphConv.combineRelu (Ideal.ofBits .f32 0x00000000#32) (V c main_v22 : S100000x128.Idx → EReal) (V c main_v12 : S100000x128.Idx → EReal)
        (V c main_v23 : S100000x1.Idx → EReal) (V c main_arg3 : S128.Idx → EReal)) := by
  show (cfg1.win 4).cut (grid1.coords t) ((dat1 V c).after 4 t) = _
  rw [after1_4]
  unfold out1_4
  rw [View.canon_unit_zero zero2]
  simp only [View.ld_unit_zero (S := S5000x128) zero2, View.ld_unit_zero (S := S5000x1) zero2, View.ld_unit_zero (S := S128) zero1]
  refine funext fun (j : S5000x128.Idx) => ?_
  obtain ⟨p, q, rfl⟩ : ∃ (p : Fin 5000) (q : Fin 128), j = ix2 p q := ⟨j 0, j 1, eq_ix2 j⟩
  have hN : cfg1.N = 20 := rfl
  have ht : t.val < 20 := hN ▸ t.isLt
  have hr : 5000 * t.val + p.val < 100000 := by have := p.isLt; omega
  refine (payload1_apply (iblk1 V c 0 t) (iblk1 V c 1 t) (iblk1 V c 2 t) (iblk1 V c 3 t) p q).trans ?_
  rw [block1_0_apply V c t p q ⟨_, hr⟩ rfl, block1_1_apply V c t p q ⟨_, hr⟩ rfl, block1_2_apply V c t p 0 ⟨_, hr⟩ rfl,
    block1_3_apply V c t q]
  show _ = Cert.GraphConv.combineRelu _ _ _ _ _ (((cfg1.win 4).blk t).view.emb (ix2 p q))
  rw [block1_4_emb t p q ⟨_, hr⟩ rfl, Cert.GraphConv.combineRelu_ix2]

/-- An index of the result array is in point t's block iff each coordinate is in the block's range on its axis. -/
theorem mem_block1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v24).slice (win1_4.rect t)).set ↔ _
  rw [View.set_slice_whole, Rect.mem_set_unit]
  exact Iff.rfl

/-- The blocks tile the result array: row r is in the block of point r / 5000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := rfl
  let t : Fin cfg1.N := ⟨(i 0).val / 5000, by rw [hN]; omega⟩
  have htv : t.val = (i 0).val / 5000 := rfl
  obtain ⟨-, -, -, -, -, -, -, e0, e1⟩ := index_facts1 t
  refine ⟨t, flush1_4 t, ?_⟩
  rw [mem_block1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE RESULT ARRAY of the first combination region after its run: the combination of the arrays it found, rectified
    at the float pattern of 0.0. -/
theorem arr1 : (dat1 (F := Ideal) V c).arrAt 4 cfg1.N
    = Cert.GraphConv.combineRelu (Ideal.ofBits .f32 0x00000000#32) (V c main_v22 : S100000x128.Idx → EReal) (V c main_v12 : S100000x128.Idx → EReal)
        (V c main_v23 : S100000x1.Idx → EReal) (V c main_arg3 : S128.Idx → EReal) :=
  (dat1 (F := Ideal) V c).arrAt_eq_of_cover 4 _ (fun t _ => written1 V c t) cover1

end Cert.KernelIdeal.Combine

end
-- ==== Proof.KernelValue.lean ====
/-
  The kernel program's two results as functions of its arguments.

  Region by region: each region's result array after its run is the layer function of what the region found in its
  input arrays, and what it found is what the earlier segments left. Region 0 leaves layer 1's scaled rows; the next
  stretch sends them along the edges and sums them; region 1 combines and rectifies, leaving the hidden activations;
  regions 2 and 3 repeat this for layer 2 without the rectifier. The hidden activations are a result too, and nothing
  writes them after region 1.
-/
import proofs.«154312_j15479062135311_2_alg».proof.Proof.KernelWalk
import proofs.«154312_j15479062135311_2_alg».proof.Proof.KernelRun
import proofs.«154312_j15479062135311_2_alg».proof.Proof.KernelProject
import proofs.«154312_j15479062135311_2_alg».proof.Proof.KernelCombine

set_option maxRecDepth 16384

noncomputable section

namespace Cert.KernelIdeal.GraphResult

open Cert.KernelIdeal Cert.KernelIdeal.Gen Cert.KernelIdeal.GraphTerms Cert.KernelIdeal.GraphWalk
open Idealize.ShloMosaic Idealize.ShloMosaic.TcCoe Idealize.SL.Sem

variable (m : (ℓ : Loc nD τ sig) → Buf (Elt Ideal) ℓ) (ρ : Dev nD → PrngReg) (c : Dev nD)

/-- After region 0: layer 1's scaled rows. -/
theorem scaled1_at : (W2 m ρ c (Proc.devRef .tc main_v12) : FVec Ideal S100000x128 .f32)
    = scaled1 (argE m c) (argX m c) (argW1 m c) := by
  refine ((W2_arr m ρ c 3).trans (Project.arr0 (V1 m ρ) c)).trans ?_
  show Cert.GraphConv.matScale (W1 m ρ c (Proc.devRef .tc main_arg0) : FVec Ideal S100000x128 .f32)
      (W1 m ρ c (Proc.devRef .tc main_arg2) : FVec Ideal S128x128 .f32)
      (W1 m ρ c (Proc.devRef .tc main_v11) : FVec Ideal S100000x1 .f32) = _
  rw [first_arg0, first_arg2, first_factorCol]
  rfl

/-- After region 1: the hidden activations. -/
theorem hidden_at : (W4 m ρ c (Proc.devRef .tc main_v24) : FVec Ideal S100000x128 .f32)
    = hidden (argE m c) (argX m c) (argW1 m c) (argB1 m c) := by
  refine ((W4_arr m ρ c 4).trans (Combine.arr1 (V3 m ρ) c)).trans ?_
  show Cert.GraphConv.combineRelu (Ideal.ofBits .f32 0x00000000#32) (V3 m ρ c main_v22 : FVec Ideal S100000x128 .f32)
      (V3 m ρ c main_v12 : FVec Ideal S100000x128 .f32) (V3 m ρ c main_v23 : FVec Ideal S100000x1 .f32)
      (V3 m ρ c main_arg3 : FVec Ideal S128 .f32) = _
  rw [entry1_sums, entry1_rows, entry1_factor, entry1_bias, scaled1_at]
  rfl

/-- After region 2: layer 2's scaled rows. -/
theorem scaled2_at : (W6 m ρ c (Proc.devRef .tc main_v26) : FVec Ideal S100000x40 .f32)
    = scaled2 (argE m c) (argX m c) (argW1 m c) (argB1 m c) (argW2 m c) := by
  refine ((W6_arr m ρ c 3).trans (Project.arr2 (V5 m ρ) c)).trans ?_
  show Cert.GraphConv.matScale (V5 m ρ c main_v24 : FVec Ideal S100000x128 .f32) (V5 m ρ c main_arg4 : FVec Ideal S128x40 .f32)
      (V5 m ρ c main_v25 : FVec Ideal S100000x1 .f32) = _
  rw [entry2_rows, hidden_at, entry2_weights, entry2_factor]
  rfl

/-- After region 3: the output. -/
theorem logits_at : (W8 m ρ c (Proc.devRef .tc main_v38) : FVec Ideal S100000x40 .f32)
    = logits (argE m c) (argX m c) (argW1 m c) (argB1 m c) (argW2 m c) (argB2 m c) := by
  refine ((W8_arr m ρ c 4).trans (Combine.arr3 (V7 m ρ) c)).trans ?_
  show Cert.GraphConv.combine (V7 m ρ c main_v36 : FVec Ideal S100000x40 .f32) (V7 m ρ c main_v26 : FVec Ideal S100000x40 .f32)
      (V7 m ρ c main_v37 : FVec Ideal S100000x1 .f32) (V7 m ρ c main_arg5 : FVec Ideal S40 .f32) = _
  rw [entry3_sums, entry3_rows, scaled2_at, entry3_factor, entry3_bias]
  rfl

/-- At the end the hidden activations are what region 1 left. -/
theorem hidden_last : (W8 m ρ c (Proc.devRef .tc main_v24) : FVec Ideal S100000x128 .f32)
    = hidden (argE m c) (argX m c) (argW1 m c) (argB1 m c) :=
  (last_hidden m ρ c).trans (hidden_at m ρ c)

/-- THE KERNEL'S RUN: every weakly fair execution terminates without a fault, with the output and the hidden
    activations at these functions of the arguments, and the arguments unchanged. -/
theorem run : θ_run defs (onTc (τ := τ) (main (F := Ideal))) ⟨m, fun _ => 0, ρ⟩ (fun r => ∀ c : Dev nD,
      r.2.mem ((c.tc : Thread nD τ).loc main_v38) = logits (argE m c) (argX m c) (argW1 m c) (argB1 m c) (argW2 m c) (argB2 m c)
      ∧ r.2.mem ((c.tc : Thread nD τ).loc main_v24) = hidden (argE m c) (argX m c) (argW1 m c) (argB1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (logits_at m ρ c), (h c).2.1.trans (hidden_last m ρ c), (h c).2.2⟩)
    (Cert.KernelIdeal.GraphRun.run_results (F := Ideal) m ρ)

end Cert.KernelIdeal.GraphResult

end
-- ==== Proof.LibSegmentScale.lean ====
/-
  Messages sent along the edges of a graph and summed at their target nodes, with a factor per node — over the extended reals.

  Node `r` carries a feature row `H[r, ·]` and a factor `D r`. Every edge `k` names a source node and a target node by
  two integer words. The message of edge `k` is the source's row; the value at node `c` is the sum of the messages of the
  edges whose target is `c`. A symmetric normalisation weighs edge `k`'s message by `D (source k) · D (target k)`.
  It can be applied edge by edge, or split: every row scaled by its own node's factor BEFORE it is sent, and every
  sum scaled by the target node's factor AFTER it is formed. The two agree because every edge summed at `c` has target
  `c`, so the second factor is the same in every term and moves out of the sum — which on the extended reals is sound
  for a factor that is a nonnegative finite number (`sum_mul_of_nonneg_ne_top`), whatever the terms are.

  The array operations that spell this: a gather of rows at clamped start indices (`rowsGather`), a gather of
  entries (`entryGather`), and a scatter that adds each update row at the row its start index names and drops it
  when that row does not exist (`rowsScatter`); each is read here at an index given by coordinates.
  Last, the factor itself when it is the inverse square root of a count guarded against zero: nonnegative and finite.
-/
import Idealize.ShloMosaic.PureOps.Ideal
import Idealize.ShloMosaic.PureOps.Ideal.Laws
import Idealize.ShloMosaic.Lib.ValueIdx

noncomputable section

namespace Cert.SegmentScale

open Idealize.ShloMosaic Idealize.ShloMosaic.ValueIdx

/-! ## A nonnegative finite factor moves out of a sum of extended reals -/

/-- `(∑ a j) · d = ∑ (a j · d)` when `0 ≤ d < ⊤`: right distributivity holds for such a factor whatever the two
    summands are (an infinite summand times `d` keeps its sign, or vanishes with `d`), hence for every finite sum. -/
theorem sum_mul_of_nonneg_ne_top {ι : Type*} (s : Finset ι) (a : ι → EReal) {d : EReal} (h0 : 0 ≤ d) (ht : d ≠ ⊤) :
    (∑ j ∈ s, a j) * d = ∑ j ∈ s, a j * d := by
  classical
  induction s using Finset.induction_on with
  | empty => simp
  | insert j s hj ih =>
    rw [Finset.sum_insert hj, Finset.sum_insert hj, EReal.right_distrib_of_nonneg_of_ne_top h0 ht, ih]

/-! ## The inverse square root of a count, guarded against zero, is a nonnegative finite number -/

/-- `if 0 < v then 1/√v else 0` on the extended reals: at `v = ⊤` the inverse root is `0`, at a positive real it is a
    positive real, and otherwise the guard answers `0`. -/
theorem guardedRsqrt_nonneg_ne_top (v : EReal) :
    (0 : EReal) ≤ Scalar.select (Ideal.cmp .ogt v 0) (Ideal.rsqrt v) 0
      ∧ Scalar.select (Ideal.cmp .ogt v 0) (Ideal.rsqrt v) 0 ≠ (⊤ : EReal) := by
  unfold Scalar.select Ideal.cmp
  by_cases h : (0 : EReal) < v
  · have hb : BitVec.ofBool (decide ((0 : EReal) < v)) = 1 := by rw [decide_eq_true h]; rfl
    rw [if_pos hb]
    induction v using EReal.rec with
    | bot => exact absurd h (by simp)
    | top => exact ⟨le_refl _, by simp⟩
    | coe r =>
      have hr : 0 < r := by exact_mod_cast h
      rw [Ideal.rsqrt_coe, if_neg (not_lt.mpr hr.le), if_neg hr.ne']
      exact ⟨by exact_mod_cast inv_nonneg.mpr (Real.sqrt_nonneg r), EReal.coe_ne_top _⟩
  · have hb : ¬ BitVec.ofBool (decide ((0 : EReal) < v)) = 1 := by rw [decide_eq_false h]; decide
    rw [if_neg hb]
    exact ⟨le_refl _, by simp⟩

/-- The same for a whole vector of counts as the array operations spell it: compare with a zero vector, take the
    host's inverse square root, select it or a zero. -/
theorem guardedRsqrt_vec {s : Shape} (deg z z' : FVec Ideal s .f32) (hz : ∀ k, z k = (0 : EReal)) (hz' : ∀ k, z' k = (0 : EReal))
    (k : s.Idx) :
    (0 : EReal) ≤ select (cmpf .ogt deg z) (Host.rsqrt deg) z' k ∧ select (cmpf .ogt deg z) (Host.rsqrt deg) z' k ≠ (⊤ : EReal) := by
  have e : select (cmpf .ogt deg z) (Host.rsqrt deg) z' k = Scalar.select (Ideal.cmp .ogt (deg k) 0) (Ideal.rsqrt (deg k)) 0 := by
    show Scalar.select (Ideal.cmp .ogt (deg k) (z k)) (Ideal.rsqrt (deg k)) (z' k) = _
    rw [hz k, hz' k]
  rw [e]
  exact guardedRsqrt_nonneg_ne_top (deg k)

/-! ## Coordinates of edges and nodes -/

section Dims
variable {n e f : ℕ}

/-- The node (row) coordinate of an index of an `[n, f]` array. -/
def nodeOf (p : (⟨2, ![n, f]⟩ : Shape).Idx) : Fin n := ⟨(p 0).val, idx2_lt0 p⟩
/-- The feature (column) coordinate of an index of an `[a, f]` array. -/
def featOf {a : ℕ} (p : (⟨2, ![a, f]⟩ : Shape).Idx) : Fin f := ⟨(p 1).val, idx2_lt1 p⟩
/-- The edge (row) coordinate of an index of an `[e, f]` array of messages. -/
def edgeOf (j : (⟨2, ![e, f]⟩ : Shape).Idx) : Fin e := ⟨(j 0).val, idx2_lt0 j⟩
/-- Where edge `k`'s one start-index word sits in the `[e, 1]` array of start indices. -/
abbrev edgeIdx (k : Fin e) : (⟨2, ![e, 1]⟩ : Shape).Idx := ix2 k (0 : Fin 1)

theorem nodeOf_ix2 (r : Fin n) (q : Fin f) : nodeOf (ix2 r q) = r := rfl
theorem featOf_ix2 {a : ℕ} (r : Fin a) (q : Fin f) : featOf (ix2 r q) = q := rfl
theorem eq_ix2_node_feat (p : (⟨2, ![n, f]⟩ : Shape).Idx) : p = ix2 (nodeOf p) (featOf p) := by
  funext a; match a with | ⟨0, _⟩ => rfl | ⟨1, _⟩ => rfl

/-- A start-index word read as a signed integer and clamped into `[0, n − 1]`: the node a gather reads. -/
def clampNode {w : ℕ} (hn : 0 < n) (v : BitVec w) : Fin n := ⟨min v.toInt.toNat (n - 1), by omega⟩

/-- A word whose signed value is a node's number clamps to that node. -/
theorem clampNode_of_toInt {w : ℕ} (hn : 0 < n) (v : BitVec w) (c : Fin n) (h : v.toInt = (c.val : ℤ)) : clampNode hn v = c := by
  apply Fin.ext
  show min v.toInt.toNat (n - 1) = c.val
  rw [h, Int.toNat_natCast]
  have := c.isLt
  omega

/-! ## The three array operations' dimension numbers -/

/-- Rows of an `[n, f]` array gathered at `[e, 1]` start indices into `[e, f]`: row `k` of the result is the operand's row
    at the clamped start index of `k`. -/
abbrev rowsGather (wf : GatherDims.WF ⟨2, ![n, f]⟩ ⟨2, ![e, 1]⟩ ⟨2, ![e, f]⟩ [1] [0] [] [0] [] 1 ![1, f]) :
    GatherDims ⟨2, ![n, f]⟩ ⟨2, ![e, 1]⟩ ⟨2, ![e, f]⟩ where
  offsetDims := [1]
  collapsedSliceDims := [0]
  operandBatchingDims := []
  startIndicesBatchingDims := []
  startIndexMap := [0]
  indexVectorDim := 1
  sliceSizes := ![1, f]
  wf := wf

/-- Entries of an `[n]` array gathered at `[e, 1]` start indices into `[e]`. -/
abbrev entryGather (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- Rows of an `[e, f]` array of updates added into an `[n, f]` array at the rows `[e, 1]` start indices name. -/
abbrev rowsScatter (wf : ScatterDims.WF ⟨2, ![n, f]⟩ ⟨2, ![e, 1]⟩ ⟨2, ![e, f]⟩ [1] [0] [0] 1) :
    ScatterDims ⟨2, ![n, f]⟩ ⟨2, ![e, 1]⟩ ⟨2, ![e, f]⟩ where
  updateWindowDims := [1]
  insertedWindowDims := [0]
  scatterDimsToOperandDims := [0]
  indexVectorDim := 1
  wf := wf

/-! ## The gathers read at an index -/

/-- THE ROW GATHER AT `(k, q)`: the operand at the clamped start index of edge `k`, column `q`. -/
theorem rowsGather_apply {α : Type} {w : ℕ} (hn : 0 < n)
    (wf : GatherDims.WF ⟨2, ![n, f]⟩ ⟨2, ![e, 1]⟩ ⟨2, ![e, f]⟩ [1] [0] [] [0] [] 1 ![1, f])
    (X : (⟨2, ![n, f]⟩ : Shape).Idx → α) (idx : IVec ⟨2, ![e, 1]⟩ w) (j : (⟨2, ![e, f]⟩ : Shape).Idx) :
    Host.gather (rowsGather wf) X idx j = X (ix2 (clampNode hn (idx (edgeIdx (edgeOf j)))) (featOf j)) := by
  unfold Host.gather
  congr 1
  funext a
  refine Fin.ext ?_
  have hsi : (rowsGather wf).siIdx j ⟨List.idxOf (0 : Fin 2) (rowsGather wf).startIndexMap,
      List.idxOf_lt_length_iff.2 (List.mem_singleton.mpr rfl)⟩ = edgeIdx (edgeOf j) := by
    funext b; refine Fin.ext ?_
    match b with
    | ⟨0, _⟩ => rfl
    | ⟨1, _⟩ => rfl
  match a with
  | ⟨0, _⟩ =>
    show (rowsGather wf).start j idx 0 + (rowsGather wf).batchCoord j 0 + (rowsGather wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather wf).startIndexMap from List.mem_singleton.mpr rfl), hsi]
    rfl
  | ⟨1, _⟩ =>
    show (rowsGather wf).start j idx 1 + (rowsGather wf).batchCoord j 1 + (rowsGather wf).offCoord j 1 = (j 1).val
    rw [GatherDims.batchCoord_eq_zero _ _ _ List.not_mem_nil]
    unfold GatherDims.start
    rw [dif_neg (show (1 : Fin 2) ∉ (rowsGather wf).startIndexMap from fun h => Nat.one_ne_zero (congrArg Fin.val (List.mem_singleton.mp h)))]
    unfold GatherDims.offCoord
    rw [dif_pos (show (1 : Fin 2) ∈ (rowsGather wf).sKept from (GatherDims.mem_sKept _ _).mpr
      ⟨fun h => Nat.one_ne_zero (congrArg Fin.val (List.mem_singleton.mp h)), List.not_mem_nil⟩)]
    simp only [Nat.zero_add, Nat.add_zero]
    rfl

/-- THE ENTRY GATHER AT `k`: the operand at the clamped start index of edge `k`. -/
theorem entryGather_apply {α : Type} {w : ℕ} (hn : 0 < n)
    (wf : GatherDims.WF ⟨1, ![n]⟩ ⟨2, ![e, 1]⟩ ⟨1, ![e]⟩ [] [0] [] [0] [] 1 ![1])
    (D : (⟨1, ![n]⟩ : Shape).Idx → α) (idx : IVec ⟨2, ![e, 1]⟩ w) (k : Fin e) :
    Host.gather (entryGather wf) D idx (ix1 k) = D (ix1 (clampNode hn (idx (edgeIdx k)))) := by
  unfold Host.gather
  congr 1
  funext a
  obtain rfl : a = 0 := Subsingleton.elim _ _
  refine Fin.ext ?_
  show (entryGather wf).start (ix1 k) idx 0 + (entryGather wf).batchCoord (ix1 k) 0 + (entryGather wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather wf).startIndexMap from List.mem_singleton.mpr rfl)]
  have hsi : (entryGather wf).siIdx (ix1 k) ⟨List.idxOf (0 : Fin 1) (entryGather wf).startIndexMap,
      List.idxOf_lt_length_iff.2 (List.mem_singleton.mpr rfl)⟩ = edgeIdx k := by
    funext b; refine Fin.ext ?_
    match b with
    | ⟨0, _⟩ => rfl
    | ⟨1, _⟩ => rfl
  rw [hsi]
  rfl

/-! ## Where the scatter puts an update row -/

/-- An update of edge `j`'s row that lands at index `i` lands on the row its start-index word names: the word, read
    signed, IS row `i`'s number (in particular it is not negative and is below `n`; otherwise the update is dropped). -/
theorem rowsScatter_some {w : ℕ} (wf : ScatterDims.WF ⟨2, ![n, f]⟩ ⟨2, ![e, 1]⟩ ⟨2, ![e, f]⟩ [1] [0] [0] 1)
    (idx : IVec ⟨2, ![e, 1]⟩ w) (j : (⟨2, ![e, f]⟩ : Shape).Idx) (i : (⟨2, ![n, f]⟩ : Shape).Idx)
    (h : (rowsScatter wf).resultIdx? j idx = some i) : (idx (edgeIdx (edgeOf j))).toInt = ((nodeOf i).val : ℤ) := by
  have hsi : (rowsScatter wf).siIdx j ⟨List.idxOf (0 : Fin 2) (rowsScatter wf).scatterDimsToOperandDims,
      List.idxOf_lt_length_iff.2 (List.mem_singleton.mpr rfl)⟩ = edgeIdx (edgeOf j) := by
    funext b; refine Fin.ext ?_
    match b with
    | ⟨0, _⟩ => rfl
    | ⟨1, _⟩ => rfl
  have hstart : (rowsScatter wf).start j idx 0 = (idx (edgeIdx (edgeOf j))).toInt := by
    unfold ScatterDims.start
    rw [dif_pos (show (0 : Fin 2) ∈ (rowsScatter wf).scatterDimsToOperandDims from List.mem_singleton.mpr rfl), hsi]
  have hwin : (rowsScatter wf).window j 0 = 0 := by
    unfold ScatterDims.window
    rw [dif_neg (show (0 : Fin 2) ∉ (rowsScatter wf).sKept from fun h => by
      have h2 := (List.mem_filter.mp h).2
      simp at h2)]
  unfold ScatterDims.resultIdx? at h
  split at h
  · rename_i hh
    have hi := Option.some.inj h
    have h0 := (hh 0).1
    rw [hstart, hwin] at h0
    subst hi
    show (idx (edgeIdx (edgeOf j))).toInt = (((rowsScatter wf).start j idx 0 + ((rowsScatter wf).window j 0 : ℕ)).toNat : ℤ)
    rw [hstart, hwin]
    simp only [Nat.cast_zero, add_zero] at h0 ⊢
    exact (Int.toNat_of_nonneg h0).symm
  · exact absurd h (by simp)

/-! ## Scaling before the messages are sent and after they are summed, against scaling edge by edge -/

/-- THE NORMALISATION SPLIT. `H` the nodes' rows, `D` a nonnegative finite factor per node, `Z` a zero array to add into.
    Left: rows scaled by their own node's factor, gathered at the sources, summed at the targets, the sum at node
    `c` scaled by `D c`. Right: rows gathered at the sources, each edge's row scaled by the product of the factor gathered
    at its source and the factor gathered at its target — the target read through start indices `colIN` that agree
    with the scatter's `colI` wherever the latter is not negative —, then summed at the targets. Equal at every index:
    an edge summed at `c` has the word `c` as its target, which is not negative, so both readings of its target are
    `c`, the second factor is `D c` in every term, and it moves out of the sum. -/
theorem scale_split (hn : 0 < n)
    (ws : ScatterDims.WF ⟨2, ![n, f]⟩ ⟨2, ![e, 1]⟩ ⟨2, ![e, f]⟩ [1] [0] [0] 1)
    (wg : GatherDims.WF ⟨2, ![n, f]⟩ ⟨2, ![e, 1]⟩ ⟨2, ![e, f]⟩ [1] [0] [] [0] [] 1 ![1, f])
    (we : GatherDims.WF ⟨1, ![n]⟩ ⟨2, ![e, 1]⟩ ⟨1, ![e]⟩ [] [0] [] [0] [] 1 ![1])
    (H Z : FVec Ideal ⟨2, ![n, f]⟩ .f32) (D : FVec Ideal ⟨1, ![n]⟩ .f32) (rowI colI colIN : IVec ⟨2, ![e, 1]⟩ 32)
    (hZ : ∀ i, Z i = (0 : EReal)) (hD : ∀ k, (0 : EReal) ≤ D k ∧ D k ≠ (⊤ : EReal))
    (hN : ∀ k : Fin e, 0 ≤ (colI (edgeIdx k)).toInt → colIN (edgeIdx k) = colI (edgeIdx k))
    (i : (⟨2, ![n, f]⟩ : Shape).Idx) :
    (Host.scatterAdd (F := Ideal) (rowsScatter ws) Z colI
        (Host.gather (rowsGather wg) (fun p => (H p * D (ix1 (nodeOf p)) : EReal)) rowI) i : EReal) * D (ix1 (nodeOf i))
      = Host.scatterAdd (F := Ideal) (rowsScatter ws) Z colI
          (fun j => (Host.gather (rowsGather wg) H rowI j
            * (Host.gather (entryGather we) D rowI (ix1 (edgeOf j)) * Host.gather (entryGather we) D colIN (ix1 (edgeOf j))) : EReal)) i := by
  show ((Z i + ∑ j ∈ Finset.univ.filter (fun j => (rowsScatter ws).resultIdx? j colI = some i),
          Host.gather (rowsGather wg) (fun p => (H p * D (ix1 (nodeOf p)) : EReal)) rowI j : EReal)) * D (ix1 (nodeOf i))
      = Z i + ∑ j ∈ Finset.univ.filter (fun j => (rowsScatter ws).resultIdx? j colI = some i),
          (Host.gather (rowsGather wg) H rowI j
            * (Host.gather (entryGather we) D rowI (ix1 (edgeOf j)) * Host.gather (entryGather we) D colIN (ix1 (edgeOf j))) : EReal)
  rw [hZ i, zero_add, zero_add, sum_mul_of_nonneg_ne_top _ _ (hD _).1 (hD _).2]
  refine Finset.sum_congr rfl fun j hj => ?_
  have hj' : (rowsScatter ws).resultIdx? j colI = some i := (Finset.mem_filter.mp hj).2
  have ht := rowsScatter_some ws colI j i hj'
  have hnn : 0 ≤ (colI (edgeIdx (edgeOf j))).toInt := by rw [ht]; exact Int.natCast_nonneg _
  rw [rowsGather_apply hn wg, rowsGather_apply hn wg, entryGather_apply hn we, entryGather_apply hn we,
    hN (edgeOf j) hnn, clampNode_of_toInt hn _ (nodeOf i) ht, nodeOf_ix2]
  exact mul_assoc _ _ _

end Dims

end Cert.SegmentScale

end
-- ==== Proof.LibRowGatherScatter.lean ====
/-
  Rows of a table gathered and scatter-added along an edge list, read at one entry.

  A table [N, C] indexed by a column [E, 1] of integer row numbers:
  * the gather of whole rows (x[idx]): entry (e, q) of the result is the table at row idx[e] — read as a
    signed integer and clamped into [0, N-1] — and column q;
  * the accumulating scatter of whole rows at the extended reals (segment_sum): entry (n, q) of the result
    is the operand's plus the sum, over the edges e whose row number read as a signed integer is exactly n,
    of the update at (e, q); an edge whose number is outside [0, N) adds nothing.
  In both the column is carried through untouched, so the operations act on each column of the table by itself,
  whatever the number C of columns: this is what lets one wide table stand for two narrow ones side by side.
-/
import Idealize.ShloMosaic.Lib.ValueIdx
import Idealize.ShloMosaic.PureOps.Ideal.Laws

noncomputable section

open scoped BigOperators

namespace Idealize.ShloMosaic.RowOps

open Idealize.ShloMosaic Idealize.ShloMosaic.ValueIdx

/-! ## The gather of whole rows -/

section Gather
variable {α : Type}

/-- The dimension numbers of x[idx] for a table [N, C] and row numbers [E, 1]: the row axis is collapsed and
    addressed by the one component of the start index, the column axis is the offset axis, slices are 1 × C. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row edge e reads: its row number as a signed integer, clamped into [0, N-1]. -/
def gatherRow {N E w : Nat} (hN : 0 < N) (idx : IVec ⟨2, ![E, 1]⟩ w) (e : Fin E) : Fin N :=
  ⟨min (idx (ix2 e (0 : Fin 1))).toInt.toNat (N - 1), by omega⟩

/-- THE GATHER AT (e, q): the table at edge e's row and the same column q. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (gatherRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    have ho : (rowGatherDims N E C wf).offCoord (ix2 e q) 1 = q.val := by
      unfold GatherDims.offCoord
      rw [dif_pos ((GatherDims.mem_sKept (rowGatherDims N E C wf) 1).mpr ⟨(by decide : (1 : Fin 2) ∉ ([0] : List (Fin 2))), List.not_mem_nil⟩)]
      rfl
    rw [hs, ho]; omega

end Gather

/-! ## The accumulating scatter of whole rows, at the extended reals -/

section Scatter

/-- The dimension numbers of segment_sum of rows [E, C] into a table [N, C] at row numbers [E, 1]: the row
    axis is inserted and addressed by the one component of the scatter index, the column axis is the window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (idx : IVec ⟨2, ![E, 1]⟩ w) (e : Fin E) (q' : Fin C) :
    (rowScatterDims N E C wf).start (ix2 e q') idx 1 = 0 := by
  unfold ScatterDims.start
  rw [dif_neg (show ¬ (1 : Fin 2) ∈ ([0] : List (Fin 2)) by decide)]

theorem window_row (e : Fin E) (q' : Fin C) : (rowScatterDims N E C wf).window (ix2 e q') 0 = 0 := by
  unfold ScatterDims.window
  rw [dif_neg (show ¬ (0 : Fin 2) ∈ (rowScatterDims N E C wf).sKept by simp [ScatterDims.sKept, Shape.kept, List.mem_filter, List.mem_finRange])]

theorem window_col (e : Fin E) (q' : Fin C) : (rowScatterDims N E C wf).window (ix2 e q') 1 = q'.val := by
  unfold ScatterDims.window
  rw [dif_pos (show (1 : Fin 2) ∈ (rowScatterDims N E C wf).sKept by simp [ScatterDims.sKept, Shape.kept, List.mem_filter, List.mem_finRange])]
  rfl

/-- WHERE AN UPDATE LANDS: the update at (e, q') lands on (n, q) exactly when edge e's row number, read as a
    signed integer, is n, and the columns agree. -/
theorem resultIdx?_rows (idx : IVec ⟨2, ![E, 1]⟩ w) (e : Fin E) (q' : Fin C) (n : Fin N) (q : Fin C) :
    (rowScatterDims N E C wf).resultIdx? (ix2 e q') idx = some (ix2 n q)
      ↔ (idx (ix2 e (0 : Fin 1))).toInt = (n.val : ℤ) ∧ q' = q := by
  have h0 := start_row wf idx e q'
  have h1 := start_col wf idx e q'
  have w0 := window_row wf e q'
  have w1 := window_col wf e q'
  unfold ScatterDims.resultIdx?
  split
  · rename_i h
    rw [Option.some.injEq]
    constructor
    · intro hf
      have e0 := congrArg (fun f => (f 0).val) hf
      have e1 := congrArg (fun f => (f 1).val) hf
      have b0 := h 0
      rw [h0, w0] at b0
      have e0' : ((rowScatterDims N E C wf).start (ix2 e q') idx 0 + ((rowScatterDims N E C wf).window (ix2 e q') 0 : ℤ)).toNat = n.val := e0
      have e1' : ((rowScatterDims N E C wf).start (ix2 e q') idx 1 + ((rowScatterDims N E C wf).window (ix2 e q') 1 : ℤ)).toNat = q.val := e1
      rw [h0, w0] at e0'
      rw [h1, w1] at e1'
      refine ⟨by omega, Fin.ext (by omega)⟩
    · rintro ⟨hr, rfl⟩
      funext a; refine Fin.ext ?_
      match a with
      | ⟨0, _⟩ =>
        show ((rowScatterDims N E C wf).start (ix2 e q') idx 0 + ((rowScatterDims N E C wf).window (ix2 e q') 0 : ℤ)).toNat = n.val
        rw [h0, w0]; omega
      | ⟨1, _⟩ =>
        show ((rowScatterDims N E C wf).start (ix2 e q') idx 1 + ((rowScatterDims N E C wf).window (ix2 e q') 1 : ℤ)).toNat = q'.val
        rw [h1, w1]; omega
  · rename_i h
    constructor
    · intro hf; exact absurd hf (by simp)
    · rintro ⟨hr, rfl⟩
      exfalso; apply h
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < (N : ℤ)
        rw [h0, w0]; have := n.isLt; omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < (C : ℤ)
        rw [h1, w1]; have := q'.isLt; omega

/-- THE ACCUMULATING SCATTER AT (n, q), over the extended reals: the operand's entry plus the sum, over the edges
    whose row number is n, of the update's entry in the same column. -/
theorem scatterAdd_rows_apply {φ : FTy} (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := φ) (rowScatterDims N E C wf) x idx upd (ix2 n q)
      = x (ix2 n q) + ∑ e ∈ Finset.univ.filter (fun e : Fin E => (idx (ix2 e (0 : Fin 1))).toInt = (n.val : ℤ)), upd (ix2 e q) := by
  show x (ix2 n q) + ∑ j ∈ Finset.univ.filter (fun j => (rowScatterDims N E C wf).resultIdx? j idx = some (ix2 n q)), upd j = _
  congr 1
  rw [Finset.sum_filter, sum_idx2, Finset.sum_filter]
  refine Finset.sum_congr rfl fun e _ => ?_
  simp only [resultIdx?_rows wf idx e _ n q]
  by_cases he : (idx (ix2 e (0 : Fin 1))).toInt = (n.val : ℤ)
  · simp only [he, true_and, if_true]
    rw [Finset.sum_ite_eq' Finset.univ q (fun b => upd (ix2 e b))]
    simp
  · simp only [he, false_and, if_false]
    exact Finset.sum_const_zero

end Scatter

end Idealize.ShloMosaic.RowOps

end
-- ==== Proof.LibSelfLoopSplit.lean ====
/-
  Self-loops handled analytically: a graph whose edge list is extended by one loop per node, against the bare edge list
  plus one extra term per node — over the extended reals.

  A graph convolution with symmetric normalisation adds a loop at every node before it counts degrees and before it
  sums messages. Spelt with arrays, the loops are n extra entries appended to the e real edges: entry e + i of the
  extended list has source i and target i. Every sum "over the extended edges whose target is node c" therefore splits
  into the same sum over the real edges plus exactly ONE more term, the loop at c (`sum_filter_split`, `sum_filter_self`):
  * the degree (a sum of ones) is the real edges' count plus one (`degree_split`), so it is positive, its inverse
    square root needs no guard against zero, and that root is a nonnegative finite number (`rsqrt_of_pos`);
  * a layer's sum of messages, each weighed by the factors of its two ends, is the sum over the real edges of the
    messages weighed at the source only, plus the node's own weighed row, all times the node's own factor
    (`layer_split`) — the target's factor is the same in every term summed at c and moves out of the sum, which on the
    extended reals is sound for a nonnegative finite factor whatever the terms are.
  Also here: the accumulating scatter of single entries into a vector, read at a node (`scatterAdd_entries_apply`).
-/
import Idealize.ShloMosaic.PureOps.Ideal
import Idealize.ShloMosaic.PureOps.Ideal.Laws
import Idealize.ShloMosaic.Lib.ValueIdx
import proofs.«154312_j15479062135311_2_alg».proof.Proof.LibSegmentScale
import proofs.«154312_j15479062135311_2_alg».proof.Proof.LibRowGatherScatter

noncomputable section

open scoped BigOperators

namespace Cert.SelfLoops

open Idealize.ShloMosaic Idealize.ShloMosaic.ValueIdx Idealize.ShloMosaic.RowOps

/-! ## Sums over a rank-1 index set -/

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## The accumulating scatter of single entries into a vector -/

section EntryScatter

/-- The dimension numbers of a segment sum of a vector [E] into a vector [N] at positions [E, 1]: the one operand
    axis is inserted and addressed by the one component of the scatter index; there is no window axis. -/
abbrev entryScatterDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : ℕ} (wf : ScatterDims.WF ⟨1, ![N]⟩ ⟨2, ![E, 1]⟩ ⟨1, ![E]⟩ [] [0] [0] 1)

theorem start_entry (idx : IVec ⟨2, ![E, 1]⟩ w) (k : Fin E) :
    (entryScatterDims N E wf).start (ix1 k) idx 0 = (idx (ix2 k (0 : Fin 1))).toInt := by
  unfold ScatterDims.start
  rw [dif_pos (show (0 : Fin 1) ∈ (entryScatterDims N E wf).scatterDimsToOperandDims from List.mem_singleton.mpr rfl)]
  have hsi : (entryScatterDims N E wf).siIdx (ix1 k) ⟨List.idxOf (0 : Fin 1) (entryScatterDims N E wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

theorem window_entry (k : Fin E) : (entryScatterDims N E wf).window (ix1 k) 0 = 0 := by
  unfold ScatterDims.window
  rw [dif_neg (show ¬ (0 : Fin 1) ∈ (entryScatterDims N E wf).sKept by simp [ScatterDims.sKept, Shape.kept, List.mem_filter, List.mem_finRange])]

/-- WHERE AN UPDATE LANDS: edge k's entry lands on node c exactly when k's position word, read signed, is c. -/
theorem resultIdx?_entries (idx : IVec ⟨2, ![E, 1]⟩ w) (k : Fin E) (c : Fin N) :
    (entryScatterDims N E wf).resultIdx? (ix1 k) idx = some (ix1 c) ↔ (idx (ix2 k (0 : Fin 1))).toInt = (c.val : ℤ) := by
  have h0 := start_entry wf idx k
  have w0 := window_entry wf k
  unfold ScatterDims.resultIdx?
  split
  · rename_i h
    rw [Option.some.injEq]
    constructor
    · intro hf
      have e0 := congrArg (fun f => (f 0).val) hf
      have b0 := h 0
      rw [h0, w0] at b0
      have e0' : ((entryScatterDims N E wf).start (ix1 k) idx 0 + ((entryScatterDims N E wf).window (ix1 k) 0 : ℤ)).toNat = c.val := e0
      rw [h0, w0] at e0'
      omega
    · intro hr
      funext a; refine Fin.ext ?_
      match a with
      | ⟨0, _⟩ =>
        show ((entryScatterDims N E wf).start (ix1 k) idx 0 + ((entryScatterDims N E wf).window (ix1 k) 0 : ℤ)).toNat = c.val
        rw [h0, w0]; omega
  · rename_i h
    constructor
    · intro hf; exact absurd hf (by simp)
    · intro hr
      exfalso; apply h
      intro a
      match a with
      | ⟨0, _⟩ =>
        show 0 ≤ (entryScatterDims N E wf).start (ix1 k) idx 0 + ((entryScatterDims N E wf).window (ix1 k) 0 : ℤ)
          ∧ (entryScatterDims N E wf).start (ix1 k) idx 0 + ((entryScatterDims N E wf).window (ix1 k) 0 : ℤ) < (N : ℤ)
        rw [h0, w0]; have := c.isLt; omega

/-- THE ACCUMULATING SCATTER OF ENTRIES AT NODE c, over the extended reals: the operand's entry plus the sum, over the
    edges whose position is c, of the update's entry. -/
theorem scatterAdd_entries_apply {φ : FTy} (x : (⟨1, ![N]⟩ : Shape).Idx → EReal) (idx : IVec ⟨2, ![E, 1]⟩ w)
    (upd : (⟨1, ![E]⟩ : Shape).Idx → EReal) (c : Fin N) :
    Host.scatterAdd (F := Ideal) (φ := φ) (entryScatterDims N E wf) x idx upd (ix1 c)
      = x (ix1 c) + ∑ k ∈ Finset.univ.filter (fun k : Fin E => (idx (ix2 k (0 : Fin 1))).toInt = (c.val : ℤ)), upd (ix1 k) := by
  show x (ix1 c) + ∑ j ∈ Finset.univ.filter (fun j => (entryScatterDims N E wf).resultIdx? j idx = some (ix1 c)), upd j = _
  congr 1
  rw [Finset.sum_filter, sum_idx1, Finset.sum_filter]
  refine Finset.sum_congr rfl fun k _ => ?_
  simp only [resultIdx?_entries wf idx k c]

end EntryScatter

/-! ## An edge list extended by one loop per node -/

section Split
variable {e n en : ℕ}

/-- Where real edge k sits in the extended list. -/
def realEdge (h : en = e + n) (k : Fin e) : Fin en := ⟨k.val, by omega⟩
/-- Where node i's loop sits in the extended list. -/
def loopEdge (h : en = e + n) (i : Fin n) : Fin en := ⟨e + i.val, by omega⟩

/-- A sum over the extended list is the sum over the real edges plus the sum over the loops. -/
theorem sum_split (h : en = e + n) (g : Fin en → EReal) :
    ∑ k, g k = ∑ k : Fin e, g (realEdge h k) + ∑ i : Fin n, g (loopEdge h i) := by
  subst h
  rw [Fin.sum_univ_add]
  rfl

/-- The same for the entries that satisfy a condition. -/
theorem sum_filter_split (h : en = e + n) (P : Fin en → Prop) [DecidablePred P] (g : Fin en → EReal) :
    ∑ k ∈ Finset.univ.filter P, g k
      = ∑ k ∈ Finset.univ.filter (fun k : Fin e => P (realEdge h k)), g (realEdge h k)
        + ∑ i ∈ Finset.univ.filter (fun i : Fin n => P (loopEdge h i)), g (loopEdge h i) := by
  simp only [Finset.sum_filter]
  exact sum_split h _

/-- Among the loops, the one whose target is node c is the loop at c, and it is the only one. -/
theorem sum_filter_self (W : Fin n → ℤ) (hW : ∀ i, W i = (i.val : ℤ)) (c : Fin n) (g : Fin n → EReal) :
    ∑ i ∈ Finset.univ.filter (fun i => W i = (c.val : ℤ)), g i = g c := by
  have hset : Finset.univ.filter (fun i : Fin n => W i = (c.val : ℤ)) = {c} := by
    ext i
    simp only [Finset.mem_filter, Finset.mem_univ, true_and, Finset.mem_singleton, hW]
    constructor
    · intro hi; exact Fin.ext (by exact_mod_cast hi)
    · rintro rfl; rfl
  rw [hset, Finset.sum_singleton]

end Split

/-! ## The degree: the real edges' count plus one -/

section Degree
variable {e n en : ℕ}

/-- The extended list's count at node c is the real edges' count plus the loop's one: every update entry is the same
    number `o`, the loops' targets are the nodes themselves. -/
theorem degree_split (h : en = e + n)
    (ws : ScatterDims.WF ⟨1, ![n]⟩ ⟨2, ![e, 1]⟩ ⟨1, ![e]⟩ [] [0] [0] 1)
    (ws' : ScatterDims.WF ⟨1, ![n]⟩ ⟨2, ![en, 1]⟩ ⟨1, ![en]⟩ [] [0] [0] 1)
    (Z Z' O : (⟨1, ![n]⟩ : Shape).Idx → EReal) (U : (⟨1, ![e]⟩ : Shape).Idx → EReal) (U' : (⟨1, ![en]⟩ : Shape).Idx → EReal)
    (tgt : IVec ⟨2, ![e, 1]⟩ 32) (tgt' : IVec ⟨2, ![en, 1]⟩ 32) (o : EReal)
    (hZ : ∀ i, Z' i = Z i) (hU : ∀ k, U k = o) (hU' : ∀ k, U' k = o) (hO : ∀ i, O i = o)
    (hreal : ∀ k : Fin e, tgt' (ix2 (realEdge h k) (0 : Fin 1)) = tgt (ix2 k (0 : Fin 1)))
    (hloop : ∀ i : Fin n, (tgt' (ix2 (loopEdge h i) (0 : Fin 1))).toInt = (i.val : ℤ)) (c : Fin n) :
    Host.scatterAdd (F := Ideal) (φ := .f32) (entryScatterDims n en ws') Z' tgt' U' (ix1 c)
      = Host.scatterAdd (F := Ideal) (φ := .f32) (entryScatterDims n e ws) Z tgt U (ix1 c) + O (ix1 c) := by
  rw [scatterAdd_entries_apply, scatterAdd_entries_apply, hZ, hO, add_assoc]
  congr 1
  rw [sum_filter_split h]
  congr 1
  · simp only [hreal]
    exact Finset.sum_congr rfl fun k _ => by rw [hU', hU]
  · rw [sum_filter_self (fun i => (tgt' (ix2 (loopEdge h i) (0 : Fin 1))).toInt) hloop c (fun i => U' (ix1 (loopEdge h i))), hU']

/-- A zero plus a sum of copies of a nonnegative number, plus a positive number, is positive. -/
theorem count_pos {ι : Type*} (s : Finset ι) (z o : EReal) (u : ι → EReal) (hz : z = 0) (hu : ∀ k, u k = o) (ho : 0 < o) :
    0 < (z + ∑ k ∈ s, u k) + o := by
  have h1 : (0 : EReal) ≤ z + ∑ k ∈ s, u k := by
    rw [hz, zero_add]
    exact Finset.sum_nonneg fun k _ => by rw [hu]; exact ho.le
  exact lt_of_lt_of_le ho (le_add_of_nonneg_left h1)

end Degree

/-! ## The inverse square root of a positive number needs no guard, and is a nonnegative finite number -/

/-- The pattern of the float 1.0 denotes a positive number. -/
theorem one_pattern_pos : (0 : EReal) < Ideal.ofBits .f32 0x3F800000#32 := by
  have h1 : Ideal.ofBits .f32 0x3F800000#32 = 1 := by
    simp [Ideal.ofBits, Ideal.ieee, -EReal.coe_mul]; norm_num
  rw [h1]; exact zero_lt_one

/-- Where the argument is positive the guard "if 0 < v then 1/√v else 0" answers 1/√v. -/
theorem guarded_eq_of_pos (v : EReal) (hv : 0 < v) :
    Scalar.select (Ideal.cmp .ogt v 0) (Ideal.rsqrt v) 0 = Ideal.rsqrt v := by
  unfold Scalar.select Ideal.cmp
  have hb : BitVec.ofBool (decide ((0 : EReal) < v)) = 1 := by rw [decide_eq_true hv]; rfl
  rw [if_pos hb]

/-- 1/√v of a positive v is a nonnegative finite number. -/
theorem rsqrt_of_pos (v : EReal) (hv : 0 < v) : (0 : EReal) ≤ Ideal.rsqrt v ∧ Ideal.rsqrt v ≠ (⊤ : EReal) := by
  have := Cert.SegmentScale.guardedRsqrt_nonneg_ne_top v
  rwa [guarded_eq_of_pos v hv] at this

/-! ## One layer: both ends' factors edge by edge over the extended list, against the source's factor edge by edge
     over the real edges, the node's own row, and the node's factor once on the whole -/

section Layer
variable {e n en f : ℕ}

/-- THE LAYER IDENTITY at node c, feature q. `Hm` the projected rows, `D` a nonnegative finite factor per node.
    Right: over the real edges, the message of edge k is the source's row times the source's factor; the sum at c,
    plus c's own row times c's factor, is scaled by c's factor. Left: over the extended list, the message of entry k is
    the source's row times the product of the factors of its two ends. The loops' ends are the node itself; an entry
    summed at c has c as its target. -/
theorem layer_split (h : en = e + n)
    (ws : ScatterDims.WF ⟨2, ![n, f]⟩ ⟨2, ![e, 1]⟩ ⟨2, ![e, f]⟩ [1] [0] [0] 1)
    (ws' : ScatterDims.WF ⟨2, ![n, f]⟩ ⟨2, ![en, 1]⟩ ⟨2, ![en, f]⟩ [1] [0] [0] 1)
    (Z Z' : (⟨2, ![n, f]⟩ : Shape).Idx → EReal) (hZ : ∀ p, Z p = 0) (hZ' : ∀ p, Z' p = 0)
    (tgt : IVec ⟨2, ![e, 1]⟩ 32) (tgt' : IVec ⟨2, ![en, 1]⟩ 32)
    (hreal : ∀ k : Fin e, tgt' (ix2 (realEdge h k) (0 : Fin 1)) = tgt (ix2 k (0 : Fin 1)))
    (hloop : ∀ i : Fin n, (tgt' (ix2 (loopEdge h i) (0 : Fin 1))).toInt = (i.val : ℤ))
    (Hm : (⟨2, ![n, f]⟩ : Shape).Idx → EReal) (D : Fin n → EReal) (hD : ∀ i, (0 : EReal) ≤ D i ∧ D i ≠ (⊤ : EReal))
    (sN : Fin e → Fin n) (sN' tN' : Fin en → Fin n)
    (hs : ∀ k, sN' (realEdge h k) = sN k) (hsl : ∀ i, sN' (loopEdge h i) = i)
    (ht : ∀ (k : Fin en) (c : Fin n), (tgt' (ix2 k (0 : Fin 1))).toInt = (c.val : ℤ) → tN' k = c)
    (M : (⟨2, ![e, f]⟩ : Shape).Idx → EReal) (hM : ∀ k q, M (ix2 k q) = Hm (ix2 (sN k) q) * D (sN k))
    (M' : (⟨2, ![en, f]⟩ : Shape).Idx → EReal)
    (hM' : ∀ k q, M' (ix2 k q) = Hm (ix2 (sN' k) q) * (D (sN' k) * D (tN' k)))
    (c : Fin n) (q : Fin f) :
    Host.scatterAdd (F := Ideal) (φ := .f32) (rowScatterDims n en f ws') Z' tgt' M' (ix2 c q)
      = (Host.scatterAdd (F := Ideal) (φ := .f32) (rowScatterDims n e f ws) Z tgt M (ix2 c q) + Hm (ix2 c q) * D c) * D c := by
  rw [scatterAdd_rows_apply, scatterAdd_rows_apply, hZ, hZ', zero_add, zero_add,
    EReal.right_distrib_of_nonneg_of_ne_top (hD c).1 (hD c).2,
    Cert.SegmentScale.sum_mul_of_nonneg_ne_top _ _ (hD c).1 (hD c).2, sum_filter_split h]
  congr 1
  · simp only [hreal]
    refine Finset.sum_congr rfl fun k hk => ?_
    have hk' : (tgt (ix2 k (0 : Fin 1))).toInt = (c.val : ℤ) := (Finset.mem_filter.mp hk).2
    rw [hM', hM, hs, ht (realEdge h k) c (by rw [hreal]; exact hk'), mul_assoc]
  · rw [sum_filter_self (fun i => (tgt' (ix2 (loopEdge h i) (0 : Fin 1))).toInt) hloop c (fun i => M' (ix2 (loopEdge h i) q)),
      hM', hsl, ht (loopEdge h c) c (hloop c), mul_assoc]

end Layer

end Cert.SelfLoops

end
-- ==== Proof.LibExtendedEdges.lean ====
/-
  The extended edge list as arrays of words, and one layer of the reference's form.

  The reference appends the node numbers 0 … n−1 to the e source words and to the e target words (a concatenation with an
  iota), reads a word below zero from the end (a select on "word < 0" that adds n), and gathers with clamping. Read at
  an entry:
  * the concatenation at a real edge is that edge's word, at node i's loop it is the word of the number i, whose signed
    value is i (`concat_real`, `concat_loop`, `toInt_ofNat_of_lt`);
  * the select leaves a word alone whose signed value is not negative (`select_slt_zero_of_nonneg`) — so a loop's
    words, and the target word of any entry that the scatter keeps, are read as they are;
  * a vector viewed as a column [m, 1] reads the vector's entry (`column_apply`).
  With these, one layer of the reference — rows gathered at the sources, each scaled by the factors gathered at its two
  ends, summed at the targets over the extended list — is the bare edge list's sum of rows scaled at the source, plus
  the node's own scaled row, times the node's factor (`reference_layer`: the layer identity of the loops' split, with
  the gathers read at an entry).
-/
import Idealize.ShloMosaic.PureOps.Ideal
import Idealize.ShloMosaic.Lib.ValueIdx
import Idealize.ShloMosaic.Lib.Pipeline.Value
import proofs.«154312_j15479062135311_2_alg».proof.Proof.LibSegmentScale
import proofs.«154312_j15479062135311_2_alg».proof.Proof.LibRowGatherScatter
import proofs.«154312_j15479062135311_2_alg».proof.Proof.LibSelfLoopSplit

noncomputable section

open scoped BigOperators

namespace Cert.ExtendedEdges

open Idealize.ShloMosaic Idealize.ShloMosaic.ValueIdx Idealize.ShloMosaic.RowOps Cert.SegmentScale Cert.SelfLoops

/-! ## Words -/

/-- The 32-bit word of a number below 2³¹ has that number as its signed value. -/
theorem toInt_ofNat_of_lt (k : ℕ) (hk : k < 2 ^ 31) : (BitVec.ofNat 32 k).toInt = (k : ℤ) := by
  unfold BitVec.toInt
  have hm : k % 2 ^ 32 = k := Nat.mod_eq_of_lt (by omega)
  rw [BitVec.toNat_ofNat, hm, if_pos (by omega)]

/-- A select on "word < 0" answers the word itself when the word's signed value is not negative. -/
theorem select_slt_zero_of_nonneg (w a : BitVec 32) (h : 0 ≤ w.toInt) :
    Scalar.select (IntOp.cmpi .slt w 0#32) a w = w := by
  have hs : w.slt 0#32 = false := by
    rw [BitVec.slt]
    simpa using h
  unfold Scalar.select IntOp.cmpi
  simp only [hs]
  rfl

/-! ## Arrays of words read at an entry -/

section Reads
variable {α : Type}

/-- A vector [m] viewed as a column [m, 1]: entry (k, 0) is the vector's entry k. -/
theorem column_apply {m : ℕ} (v : (⟨1, ![m]⟩ : Shape).Idx → α) (h : (⟨1, ![m]⟩ : Shape).BroadcastsInDim ⟨2, ![m, 1]⟩ ![0]) (k : Fin m) :
    broadcastInDim ⟨2, ![m, 1]⟩ ![0] h v (ix2 k (0 : Fin 1)) = v (ix1 k) :=
  broadcastInDim_apply ![0] h v (ix2 k (0 : Fin 1)) (ix1 k) (fun a => by
    match a with
    | ⟨0, _⟩ =>
      show k.val = if m = 1 then 0 else k.val
      split
      · have := k.isLt; omega
      · rfl)

variable {e n en : ℕ}

/-- The concatenation of [e] and [n] at a real edge's place is the first array's entry. -/
theorem concat_real (hen : en = e + n) (x : (⟨1, ![e]⟩ : Shape).Idx → α) (y : (⟨1, ![n]⟩ : Shape).Idx → α)
    (h : Shape.Concatenates [(⟨1, ![e]⟩ : Shape), ⟨1, ![n]⟩] ⟨1, ![en]⟩ 0) (k : Fin e) :
    concatenate ⟨1, ![en]⟩ 0 [⟨⟨1, ![e]⟩, x⟩, ⟨⟨1, ![n]⟩, y⟩] h (ix1 (realEdge hen k)) = x (ix1 k) :=
  concatenate_pair_apply_left 0 x y h (ix1 (realEdge hen k)) rfl (ix1 k) (fun b => by
    match b with
    | ⟨0, _⟩ => rfl)

/-- The concatenation of [e] and [n] at node i's loop is the second array's entry i. -/
theorem concat_loop (hen : en = e + n) (x : (⟨1, ![e]⟩ : Shape).Idx → α) (y : (⟨1, ![n]⟩ : Shape).Idx → α)
    (h : Shape.Concatenates [(⟨1, ![e]⟩ : Shape), ⟨1, ![n]⟩] ⟨1, ![en]⟩ 0) (i : Fin n) :
    concatenate ⟨1, ![en]⟩ 0 [⟨⟨1, ![e]⟩, x⟩, ⟨⟨1, ![n]⟩, y⟩] h (ix1 (loopEdge hen i)) = y (ix1 i) :=
  concatenate_pair_apply_right 0 x y h (ix1 (loopEdge hen i)) rfl rfl (ix1 i)
    (fun b hne => by
      match b with
      | ⟨0, _⟩ => exact absurd rfl hne)
    (by show i.val + e = e + i.val; omega)

end Reads

/-! ## One layer in the reference's form -/

section Layer
variable {e n en f : ℕ}

/-- THE REFERENCE'S LAYER at node c, feature q, against the bare edge list's. `Hm` the projected rows, `Dv` the
    nonnegative finite factor per node (a vector). `tgt`, `src` the bare list's target and source columns; over the
    extended list `tgt'` the raw target column, `srcA` / `srcB` two copies of the source column as the gathers read it,
    `tgtN'` the target column as the factor's gather reads it (equal to the raw one wherever that is not negative). -/
theorem reference_layer (hen : en = e + n) (hn : 0 < n)
    (ws : ScatterDims.WF ⟨2, ![n, f]⟩ ⟨2, ![e, 1]⟩ ⟨2, ![e, f]⟩ [1] [0] [0] 1)
    (ws' : ScatterDims.WF ⟨2, ![n, f]⟩ ⟨2, ![en, 1]⟩ ⟨2, ![en, f]⟩ [1] [0] [0] 1)
    (wg : GatherDims.WF ⟨2, ![n, f]⟩ ⟨2, ![e, 1]⟩ ⟨2, ![e, f]⟩ [1] [0] [] [0] [] 1 ![1, f])
    (wg' : GatherDims.WF ⟨2, ![n, f]⟩ ⟨2, ![en, 1]⟩ ⟨2, ![en, f]⟩ [1] [0] [] [0] [] 1 ![1, f])
    (we' : GatherDims.WF ⟨1, ![n]⟩ ⟨2, ![en, 1]⟩ ⟨1, ![en]⟩ [] [0] [] [0] [] 1 ![1])
    (Z Z' : (⟨2, ![n, f]⟩ : Shape).Idx → EReal) (hZ : ∀ p, Z p = 0) (hZ' : ∀ p, Z' p = 0)
    (Hm : (⟨2, ![n, f]⟩ : Shape).Idx → EReal) (Dv : (⟨1, ![n]⟩ : Shape).Idx → EReal)
    (hD : ∀ i : Fin n, (0 : EReal) ≤ Dv (ix1 i) ∧ Dv (ix1 i) ≠ (⊤ : EReal))
    (tgt src : IVec ⟨2, ![e, 1]⟩ 32) (tgt' srcA srcB tgtN' : IVec ⟨2, ![en, 1]⟩ 32)
    (hreal : ∀ k : Fin e, tgt' (ix2 (realEdge hen k) (0 : Fin 1)) = tgt (ix2 k (0 : Fin 1)))
    (hloop : ∀ i : Fin n, (tgt' (ix2 (loopEdge hen i) (0 : Fin 1))).toInt = (i.val : ℤ))
    (hsA : ∀ k : Fin e, srcA (ix2 (realEdge hen k) (0 : Fin 1)) = src (ix2 k (0 : Fin 1)))
    (hsAl : ∀ i : Fin n, (srcA (ix2 (loopEdge hen i) (0 : Fin 1))).toInt = (i.val : ℤ))
    (hsB : ∀ k : Fin en, srcB (ix2 k (0 : Fin 1)) = srcA (ix2 k (0 : Fin 1)))
    (htN : ∀ k : Fin en, 0 ≤ (tgt' (ix2 k (0 : Fin 1))).toInt → tgtN' (ix2 k (0 : Fin 1)) = tgt' (ix2 k (0 : Fin 1)))
    (M' : (⟨2, ![en, f]⟩ : Shape).Idx → EReal)
    (hM' : ∀ (k : Fin en) (q : Fin f), M' (ix2 k q)
      = Host.gather (rowGatherDims n en f wg') Hm srcA (ix2 k q)
        * (Host.gather (entryGather we') Dv srcB (ix1 k) * Host.gather (entryGather we') Dv tgtN' (ix1 k)))
    (c : Fin n) (q : Fin f) :
    Host.scatterAdd (F := Ideal) (φ := .f32) (rowScatterDims n en f ws') Z' tgt' M' (ix2 c q)
      = (Host.scatterAdd (F := Ideal) (φ := .f32) (rowScatterDims n e f ws) Z tgt
            (Host.gather (rowGatherDims n e f wg) (fun p => Hm p * Dv (ix1 (p 0))) src) (ix2 c q)
          + Hm (ix2 c q) * Dv (ix1 c)) * Dv (ix1 c) := by
  refine layer_split hen ws ws' Z Z' hZ hZ' tgt tgt' hreal hloop Hm (fun i => Dv (ix1 i)) hD
    (fun k => gatherRow hn src k) (fun k => gatherRow hn srcA k) (fun k => clampNode hn (tgtN' (ix2 k (0 : Fin 1))))
    ?_ ?_ ?_ _ ?_ M' ?_ c q
  · intro k
    refine Fin.ext ?_
    show min (srcA (ix2 (realEdge hen k) (0 : Fin 1))).toInt.toNat (n - 1) = min (src (ix2 k (0 : Fin 1))).toInt.toNat (n - 1)
    rw [hsA k]
  · intro i
    exact clampNode_of_toInt hn _ i (hsAl i)
  · intro k c' hk
    rw [htN k (by rw [hk]; exact Int.natCast_nonneg _)]
    exact clampNode_of_toInt hn _ c' hk
  · intro k q'
    rw [gather_rows_apply hn wg]
    rfl
  · intro k q'
    rw [hM' k q', gather_rows_apply hn wg', entryGather_apply hn we', entryGather_apply hn we', hsB k]
    rfl

end Layer

end Cert.ExtendedEdges

end
-- ==== Proof.ReferenceWords.lean ====
/-
  The reference program's edge words, degree and factor, read entry by entry.

  The reference extends the source and target words by the node numbers, views them as columns (as they are, for the
  scatters; with a word below zero read from the end, for the gathers), counts degrees over the extended list and
  guards the inverse square root against a zero degree. Entry by entry: the extended vectors at a real edge and at a
  loop, the columns at an entry, the extended list's count is the bare list's plus one, every degree is positive, so
  the guarded root is the kernel's factor, a nonnegative finite number.
-/
import proofs.«154312_j15479062135311_2_alg».proof.Proof.RefRead
import proofs.«154312_j15479062135311_2_alg».proof.Proof.KernelTerms
import proofs.«154312_j15479062135311_2_alg».proof.Proof.GraphConvSpec
import proofs.«154312_j15479062135311_2_alg».proof.Proof.LibGraphLayer
import proofs.«154312_j15479062135311_2_alg».proof.Proof.LibSelfLoopSplit
import proofs.«154312_j15479062135311_2_alg».proof.Proof.LibExtendedEdges
import Idealize.ShloMosaic.PureOps.Ideal.Laws
import Idealize.ShloMosaic.Lib.ValueIdx
import Idealize.ShloMosaic.Lib.Pipeline.Value

set_option maxRecDepth 16384

noncomputable section

open scoped BigOperators

namespace Cert.ReferenceIdeal.GraphValue

open Cert.ReferenceIdeal Cert.ReferenceIdeal.Facts₀ Cert.ReferenceIdeal.ReadP
open Idealize.ShloMosaic Idealize.ShloMosaic.ValueIdx Idealize.ShloMosaic.RowOps
open Cert.SegmentScale Cert.SelfLoops Cert.ExtendedEdges Cert.GraphLayer

/-- The extended list has the e real edges and then the n loops. -/
theorem hen : (1700000 : ℕ) = 1600000 + 100000 := by norm_num
theorem hn : 0 < (100000 : ℕ) := by norm_num

/-! ## The extended word vectors and their columns -/

/-- A vector of e words extended by the node numbers. -/
def extend (w : IVec S1600000 32) : IVec S1700000 32 :=
  concatenate S1700000 0 [⟨S1600000, w⟩, ⟨S100000, iotaInDim S100000 32 0⟩] concatenates_S1600000_S100000_S1700000_d0
/-- A vector of words as a column of positions. -/
def rawColumn (v : IVec S1700000 32) : IVec S1700000x1 32 := broadcastInDim S1700000x1 ![0] bcast_S1700000_S1700000x1_0 v
/-- The same with a word below zero read from the end. -/
def normColumn (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

theorem extend_real (w : IVec S1600000 32) (k : Fin 1600000) : extend w (ix1 (realEdge hen k)) = w (ix1 k) :=
  concat_real hen w _ concatenates_S1600000_S100000_S1700000_d0 k
theorem extend_loop (w : IVec S1600000 32) (i : Fin 100000) : extend w (ix1 (loopEdge hen i)) = BitVec.ofNat 32 i.val :=
  (concat_loop hen w _ concatenates_S1600000_S100000_S1700000_d0 i).trans rfl
theorem extend_loop_toInt (w : IVec S1600000 32) (i : Fin 100000) : (extend w (ix1 (loopEdge hen i))).toInt = (i.val : ℤ) := by
  rw [extend_loop]; exact toInt_ofNat_of_lt _ (by have := i.isLt; omega)

theorem rawColumn_apply (v : IVec S1700000 32) (k : Fin 1700000) : rawColumn v (ix2 k (0 : Fin 1)) = v (ix1 k) :=
  column_apply v bcast_S1700000_S1700000x1_0 k
theorem normColumn_apply (v : IVec S1700000 32) (k : Fin 1700000) :
    normColumn v (ix2 k (0 : Fin 1))
      = Scalar.select (IntOp.cmpi .slt (v (ix1 k)) 0#32) (IntOp.addi (v (ix1 k)) 100000#32) (v (ix1 k)) :=
  (column_apply _ bcast_S1700000_S1700000x1_0 k).trans rfl
theorem normColumn_of_nonneg (v : IVec S1700000 32) (k : Fin 1700000) (h : 0 ≤ (v (ix1 k)).toInt) :
    normColumn v (ix2 k (0 : Fin 1)) = v (ix1 k) := by
  rw [normColumn_apply]; exact select_slt_zero_of_nonneg _ _ h

/-- The kernel's source column at a real edge is the normalised extended source column there. -/
theorem srcIdx_apply (x1 : IVec S2x1600000 32) (k : Fin 1600000) :
    Cert.KernelIdeal.GraphTerms.srcIdx x1 (ix2 k (0 : Fin 1))
      = normColumn (extend (Cert.KernelIdeal.GraphTerms.srcWords x1)) (ix2 (realEdge hen k) (0 : Fin 1)) := by
  rw [normColumn_apply, extend_real]
  exact (column_apply _ Cert.KernelIdeal.Facts₀.bcast_S1600000_S1600000x1_0 k).trans rfl
theorem dstIdx_apply (x1 : IVec S2x1600000 32) (k : Fin 1600000) :
    Cert.KernelIdeal.GraphTerms.dstIdx x1 (ix2 k (0 : Fin 1)) = Cert.KernelIdeal.GraphTerms.dstWords x1 (ix1 k) :=
  column_apply _ Cert.KernelIdeal.Facts₀.bcast_S1600000_S1600000x1_0 k

/-! ## The degree and the factor -/

/-- A rank-0 float constant broadcast over any shape reads, everywhere, the number its pattern denotes. (Stated for an
    arbitrary pattern w: nothing here looks inside the pattern.) -/
theorem splat_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w := rfl

/-- The kernel's count's dimension numbers are the entry scatter's. -/
theorem kernel_count_dims : Cert.KernelIdeal.scatter_S100000_S1600000x1_S1600000_n_0_0_1
    = entryScatterDims 100000 1600000 Cert.KernelIdeal.Facts₀.scatter_S100000_S1600000x1_S1600000_n_0_0_1_wf := rfl
/-- The reference's count's dimension numbers are the entry scatter's. -/
theorem reference_count_dims : scatter_S100000_S1700000x1_S1700000_n_0_0_1
    = entryScatterDims 100000 1700000 scatter_S100000_S1700000x1_S1700000_n_0_0_1_wf := rfl

/-- The host's inverse square root of a vector, at an entry. -/
theorem hostRsqrt_apply {s : Shape} (v : FVec Ideal s .f32) (i : s.Idx) : Host.rsqrt (F := Ideal) v i = Ideal.rsqrt (v i) := rfl
/-- The guarded inverse square root of a vector, at an entry. -/
theorem guarded_apply {s : Shape} (v z z' : FVec Ideal s .f32) (i : s.Idx) :
    select (cmpf (F := Ideal) .ogt v z) (Host.rsqrt (F := Ideal) v) z' i
      = Scalar.select (Ideal.cmp .ogt (v i) (z i)) (Ideal.rsqrt (v i)) (z' i) := rfl

/-- The kernel's degree at node c: the count plus the added one. -/
theorem degree_apply (x1 : IVec S2x1600000 32) (c : Fin 100000) :
    Cert.KernelIdeal.GraphTerms.degree x1 (ix1 c)
      = Host.scatterAdd (F := Ideal) (φ := .f32)
          (entryScatterDims 100000 1600000 Cert.KernelIdeal.Facts₀.scatter_S100000_S1600000x1_S1600000_n_0_0_1_wf)
          (broadcastInDim Cert.KernelIdeal.S100000 ![] Cert.KernelIdeal.Facts₀.bcast_S_S100000 (constant (F := Ideal) Cert.KernelIdeal.S_ .f32 0x00000000#32))
          (Cert.KernelIdeal.GraphTerms.dstIdx x1)
          (broadcastInDim Cert.KernelIdeal.S1600000 ![] Cert.KernelIdeal.Facts₀.bcast_S_S1600000 (constant (F := Ideal) Cert.KernelIdeal.S_ .f32 0x3F800000#32)) (ix1 c)
        + broadcastInDim Cert.KernelIdeal.S100000 ![] Cert.KernelIdeal.Facts₀.bcast_S_S100000 (constant (F := Ideal) Cert.KernelIdeal.S_ .f32 0x3F800000#32) (ix1 c) := by
  unfold Cert.KernelIdeal.GraphTerms.degree
  rw [addf_apply, kernel_count_dims]

/-- The reference's count over the extended list is the kernel's count plus one. -/
theorem degree_eq (x1 : IVec S2x1600000 32) :
    (Host.scatterAdd (F := Ideal) scatter_S100000_S1700000x1_S1700000_n_0_0_1
        (broadcastInDim S100000 ![] bcast_S_S100000 (constant (F := Ideal) S_ .f32 0x00000000#32))
        (rawColumn (extend (Cert.KernelIdeal.GraphTerms.dstWords x1)))
        (broadcastInDim S1700000 ![] bcast_S_S1700000 (constant (F := Ideal) S_ .f32 0x3F800000#32)) : FVec Ideal S100000 .f32)
      = Cert.KernelIdeal.GraphTerms.degree x1 := by
  funext i
  obtain ⟨c, rfl⟩ : ∃ c : Fin 100000, i = ix1 c := ⟨i 0, eq_ix1 i⟩
  rw [degree_apply, reference_count_dims]
  exact degree_split hen Cert.KernelIdeal.Facts₀.scatter_S100000_S1600000x1_S1600000_n_0_0_1_wf
    scatter_S100000_S1700000x1_S1700000_n_0_0_1_wf
    (broadcastInDim Cert.KernelIdeal.S100000 ![] Cert.KernelIdeal.Facts₀.bcast_S_S100000 (constant (F := Ideal) Cert.KernelIdeal.S_ .f32 0x00000000#32))
    (broadcastInDim S100000 ![] bcast_S_S100000 (constant (F := Ideal) S_ .f32 0x00000000#32))
    (broadcastInDim Cert.KernelIdeal.S100000 ![] Cert.KernelIdeal.Facts₀.bcast_S_S100000 (constant (F := Ideal) Cert.KernelIdeal.S_ .f32 0x3F800000#32))
    (broadcastInDim Cert.KernelIdeal.S1600000 ![] Cert.KernelIdeal.Facts₀.bcast_S_S1600000 (constant (F := Ideal) Cert.KernelIdeal.S_ .f32 0x3F800000#32))
    (broadcastInDim S1700000 ![] bcast_S_S1700000 (constant (F := Ideal) S_ .f32 0x3F800000#32))
    (Cert.KernelIdeal.GraphTerms.dstIdx x1) (rawColumn (extend (Cert.KernelIdeal.GraphTerms.dstWords x1)))
    (Ideal.ofBits .f32 0x3F800000#32)
    (fun i => (splat_apply bcast_S_S100000 0x00000000#32 i).trans (splat_apply Cert.KernelIdeal.Facts₀.bcast_S_S100000 0x00000000#32 i).symm)
    (fun k => splat_apply Cert.KernelIdeal.Facts₀.bcast_S_S1600000 0x3F800000#32 k) (fun k => splat_apply bcast_S_S1700000 0x3F800000#32 k)
    (fun i => splat_apply Cert.KernelIdeal.Facts₀.bcast_S_S100000 0x3F800000#32 i)
    (fun k => by rw [rawColumn_apply, extend_real, dstIdx_apply])
    (fun i => by rw [rawColumn_apply]; exact extend_loop_toInt _ i) c

/-- Every degree is positive. -/
theorem degree_pos (x1 : IVec S2x1600000 32) (c : Fin 100000) : (0 : EReal) < Cert.KernelIdeal.GraphTerms.degree x1 (ix1 c) := by
  rw [degree_apply, scatterAdd_entries_apply, splat_apply Cert.KernelIdeal.Facts₀.bcast_S_S100000 0x00000000#32 (ix1 c),
    splat_apply Cert.KernelIdeal.Facts₀.bcast_S_S100000 0x3F800000#32 (ix1 c)]
  exact count_pos _ (Ideal.ofBits .f32 0x00000000#32) (Ideal.ofBits .f32 0x3F800000#32) _ Ideal.ofBits_zero_f32
    (fun k => splat_apply Cert.KernelIdeal.Facts₀.bcast_S_S1600000 0x3F800000#32 (ix1 k)) one_pattern_pos

/-- The factor at node c is the inverse square root of the degree at c. -/
theorem factor_apply (x1 : IVec S2x1600000 32) (c : Fin 100000) :
    Cert.KernelIdeal.GraphTerms.factor x1 (ix1 c) = Ideal.rsqrt (Cert.KernelIdeal.GraphTerms.degree x1 (ix1 c)) := by
  unfold Cert.KernelIdeal.GraphTerms.factor
  rw [hostRsqrt_apply]

/-- The factor is a nonnegative finite number at every node. -/
theorem factor_nonneg_ne_top (x1 : IVec S2x1600000 32) (c : Fin 100000) :
    (0 : EReal) ≤ Cert.KernelIdeal.GraphTerms.factor x1 (ix1 c) ∧ Cert.KernelIdeal.GraphTerms.factor x1 (ix1 c) ≠ (⊤ : EReal) := by
  rw [factor_apply]
  exact rsqrt_of_pos _ (degree_pos x1 c)

/-- A select on "v > 0" answers its first branch where v is positive. -/
theorem select_gt_zero_of_pos (v a d : EReal) (hv : 0 < v) : Scalar.select (Ideal.cmp .ogt v 0) a d = a := by
  unfold Scalar.select Ideal.cmp
  have hb : BitVec.ofBool (decide ((0 : EReal) < v)) = 1 := by rw [decide_eq_true hv]; rfl
  rw [if_pos hb]

/-- The guarded inverse square root of the extended list's count is the kernel's factor: the guard never fires.
    `z` is the zero the count is compared with (every entry the number the pattern of 0.0 denotes). -/
theorem guarded_factor_eq (x1 : IVec S2x1600000 32) (deg' z z' : FVec Ideal S100000 .f32)
    (hdeg : deg' = Cert.KernelIdeal.GraphTerms.degree x1) (hz : ∀ i, z i = Ideal.ofBits .f32 0x00000000#32) :
    select (cmpf (F := Ideal) .ogt deg' z) (Host.rsqrt (F := Ideal) deg') z' = Cert.KernelIdeal.GraphTerms.factor x1 := by
  subst hdeg
  funext i
  obtain ⟨c, rfl⟩ : ∃ c : Fin 100000, i = ix1 c := ⟨i 0, eq_ix1 i⟩
  rw [guarded_apply, factor_apply, hz, Ideal.ofBits_zero_f32]
  exact select_gt_zero_of_pos _ _ _ (degree_pos x1 c)

end Cert.ReferenceIdeal.GraphValue

end
-- ==== Proof.ReferenceValue.lean ====
/-
  The reference program's two results are the kernel program's functions of the arguments.

  The reference weighs every message over the extended edge list by the factors of its two ends. Entry by entry this is
  the kernel's arrangement — the bare edge list, the rows scaled at the source before they are sent and the sum scaled
  at the target afterwards, the node's own scaled row added in — by the loops' split and the layer identity; what is
  done here is to read the reference's arrays at an entry and recognise the pieces, layer by layer.
-/
import proofs.«154312_j15479062135311_2_alg».proof.Proof.ReferenceWords

set_option maxRecDepth 16384

noncomputable section

open scoped BigOperators

namespace Cert.ReferenceIdeal.GraphValue

open Cert.ReferenceIdeal Cert.ReferenceIdeal.Facts₀ Cert.ReferenceIdeal.ReadP
open Idealize.ShloMosaic Idealize.ShloMosaic.ValueIdx Idealize.ShloMosaic.RowOps
open Cert.SegmentScale Cert.SelfLoops Cert.ExtendedEdges Cert.GraphLayer

/-! ## The projected rows and the scaled rows -/

section Layer
variable (x1 : IVec S2x1600000 32)

/-- The factor's column at row c is the factor at c. -/
theorem factorCol_apply (c : Fin 100000) : Cert.KernelIdeal.GraphTerms.factorCol x1 (ix2 c (0 : Fin 1)) = Cert.KernelIdeal.GraphTerms.factor x1 (ix1 c) :=
  shapeCast_a_a1_apply (Cert.KernelIdeal.GraphTerms.factor x1) Cert.KernelIdeal.Facts₀.shapeCasts_S100000_S100000x1 c 0

/-- The scaled rows are the projected rows times the node's factor. -/
theorem matScale_factor {k f : ℕ} (X : (⟨2, ![100000, k]⟩ : Shape).Idx → EReal) (W : (⟨2, ![k, f]⟩ : Shape).Idx → EReal) :
    Cert.GraphConv.matScale X W (Cert.KernelIdeal.GraphTerms.factorCol x1) = fun p => matProd X W p * Cert.KernelIdeal.GraphTerms.factor x1 (ix1 (p 0)) := by
  funext p
  obtain ⟨r, q, rfl⟩ : ∃ (r : Fin 100000) (q : Fin f), p = ix2 r q := ⟨p 0, p 1, eq_ix2 p⟩
  rw [Cert.GraphConv.matScale_ix2, factorCol_apply]
  rfl

/-- ONE LAYER, the reference's form against the kernel's, at node c and feature q: the extended list's sum of messages
    weighed by both ends' factors, plus the bias, is the kernel's combination of the bare list's sum of scaled rows,
    the node's own scaled row, the node's factor and the bias. -/
theorem layer_out {k f : ℕ}
    (ws : ScatterDims.WF ⟨2, ![100000, f]⟩ ⟨2, ![1600000, 1]⟩ ⟨2, ![1600000, f]⟩ [1] [0] [0] 1)
    (ws' : ScatterDims.WF ⟨2, ![100000, f]⟩ ⟨2, ![1700000, 1]⟩ ⟨2, ![1700000, f]⟩ [1] [0] [0] 1)
    (wg : GatherDims.WF ⟨2, ![100000, f]⟩ ⟨2, ![1600000, 1]⟩ ⟨2, ![1600000, f]⟩ [1] [0] [] [0] [] 1 ![1, f])
    (wg' : GatherDims.WF ⟨2, ![100000, f]⟩ ⟨2, ![1700000, 1]⟩ ⟨2, ![1700000, f]⟩ [1] [0] [] [0] [] 1 ![1, f])
    (we' : GatherDims.WF ⟨1, ![100000]⟩ ⟨2, ![1700000, 1]⟩ ⟨1, ![1700000]⟩ [] [0] [] [0] [] 1 ![1])
    (X : (⟨2, ![100000, k]⟩ : Shape).Idx → EReal) (W : (⟨2, ![k, f]⟩ : Shape).Idx → EReal) (b : (⟨1, ![f]⟩ : Shape).Idx → EReal)
    (Z Z' : (⟨2, ![100000, f]⟩ : Shape).Idx → EReal) (hZ : ∀ p, Z p = 0) (hZ' : ∀ p, Z' p = 0)
    (M' : (⟨2, ![1700000, f]⟩ : Shape).Idx → EReal)
    (hM' : ∀ (k' : Fin 1700000) (q : Fin f), M' (ix2 k' q)
      = Host.gather (rowGatherDims 100000 1700000 f wg') (matProd X W) (normColumn (extend (Cert.KernelIdeal.GraphTerms.srcWords x1))) (ix2 k' q)
        * (Host.gather (entryGather we') (Cert.KernelIdeal.GraphTerms.factor x1) (normColumn (extend (Cert.KernelIdeal.GraphTerms.srcWords x1))) (ix1 k')
          * Host.gather (entryGather we') (Cert.KernelIdeal.GraphTerms.factor x1) (normColumn (extend (Cert.KernelIdeal.GraphTerms.dstWords x1))) (ix1 k')))
    (c : Fin 100000) (q : Fin f) :
    Host.scatterAdd (F := Ideal) (φ := .f32) (rowScatterDims 100000 1700000 f ws') Z' (rawColumn (extend (Cert.KernelIdeal.GraphTerms.dstWords x1))) M' (ix2 c q)
        + b (ix1 q)
      = Cert.GraphConv.combine
          (Host.scatterAdd (F := Ideal) (φ := .f32) (rowScatterDims 100000 1600000 f ws) Z (Cert.KernelIdeal.GraphTerms.dstIdx x1)
            (Host.gather (rowGatherDims 100000 1600000 f wg) (Cert.GraphConv.matScale X W (Cert.KernelIdeal.GraphTerms.factorCol x1)) (Cert.KernelIdeal.GraphTerms.srcIdx x1)))
          (Cert.GraphConv.matScale X W (Cert.KernelIdeal.GraphTerms.factorCol x1)) (Cert.KernelIdeal.GraphTerms.factorCol x1) b (ix2 c q) := by
  rw [Cert.GraphConv.combine_ix2, factorCol_apply, matScale_factor]
  congr 1
  exact reference_layer hen hn ws ws' wg wg' we' Z Z' hZ hZ' (matProd X W) (Cert.KernelIdeal.GraphTerms.factor x1) (factor_nonneg_ne_top x1)
    (Cert.KernelIdeal.GraphTerms.dstIdx x1) (Cert.KernelIdeal.GraphTerms.srcIdx x1) (rawColumn (extend (Cert.KernelIdeal.GraphTerms.dstWords x1))) (normColumn (extend (Cert.KernelIdeal.GraphTerms.srcWords x1)))
    (normColumn (extend (Cert.KernelIdeal.GraphTerms.srcWords x1))) (normColumn (extend (Cert.KernelIdeal.GraphTerms.dstWords x1)))
    (fun k => by rw [rawColumn_apply, extend_real, dstIdx_apply])
    (fun i => by rw [rawColumn_apply]; exact extend_loop_toInt _ i)
    (fun k => (srcIdx_apply x1 k).symm)
    (fun i => by
      rw [normColumn_of_nonneg _ _ (by rw [extend_loop_toInt]; exact Int.natCast_nonneg _)]
      exact extend_loop_toInt _ i)
    (fun _ => rfl)
    (fun k' h => by
      rw [rawColumn_apply] at h ⊢
      exact normColumn_of_nonneg _ _ h)
    M' hM' c q

end Layer

/-! ## The reference's arrays, recognised -/

section Recognise
variable (x0 : FVec Ideal S100000x128 .f32) (x1 : IVec S2x1600000 32) (x2 : FVec Ideal S128x128 .f32) (x3 : FVec Ideal S128 .f32)
  (x4 : FVec Ideal S128x40 .f32) (x5 : FVec Ideal S40 .f32)

/-- Layer 1's guarded factor is the kernel's factor. -/
theorem factor1_eq : val_main_v14 (F := Ideal) x1 = Cert.KernelIdeal.GraphTerms.factor x1 :=
  guarded_factor_eq x1 (val_main_v10 (F := Ideal) x1) (val_main_v11 (F := Ideal)) (val_main_call0_v1 (F := Ideal))
    (degree_eq x1) (fun i => splat_apply bcast_S_S100000 0x00000000#32 i)
/-- Layer 2's guarded factor is the kernel's factor. -/
theorem factor2_eq : val_main_v58 (F := Ideal) x1 = Cert.KernelIdeal.GraphTerms.factor x1 :=
  guarded_factor_eq x1 (val_main_v54 (F := Ideal) x1) (val_main_v55 (F := Ideal)) (val_main_call2_v1 (F := Ideal))
    (degree_eq x1) (fun i => splat_apply bcast_S_S100000 0x00000000#32 i)

/-- Layer 1's product of the features and the weights, entry by entry. -/
theorem proj1_eq : val_main_v30 (F := Ideal) x0 x2 = matProd x0 x2 := by
  funext i
  obtain ⟨r, q, rfl⟩ : ∃ (r : Fin 100000) (q : Fin 128), i = ix2 r q := ⟨i 0, i 1, eq_ix2 i⟩
  rw [val_main_v30_apply, matProd_ix2]
  refine Finset.sum_congr rfl fun k _ => ?_
  exact congrArg₂ (fun u v : EReal => u * v)
    (congrArg x0 (funext fun a => by match a with | ⟨0, _⟩ => rfl | ⟨1, _⟩ => rfl))
    (congrArg x2 (funext fun a => by match a with | ⟨0, _⟩ => rfl | ⟨1, _⟩ => rfl))
/-- Layer 2's product of the hidden activations and the weights, entry by entry. -/
theorem proj2_eq : val_main_v74 (F := Ideal) x0 x1 x2 x3 x4 = matProd (val_main_v47 (F := Ideal) x0 x1 x2 x3) x4 := by
  funext i
  obtain ⟨r, q, rfl⟩ : ∃ (r : Fin 100000) (q : Fin 40), i = ix2 r q := ⟨i 0, i 1, eq_ix2 i⟩
  rw [val_main_v74_apply, matProd_ix2]
  refine Finset.sum_congr rfl fun k _ => ?_
  exact congrArg₂ (fun u v : EReal => u * v)
    (congrArg (val_main_v47 (F := Ideal) x0 x1 x2 x3) (funext fun a => by match a with | ⟨0, _⟩ => rfl | ⟨1, _⟩ => rfl))
    (congrArg x4 (funext fun a => by match a with | ⟨0, _⟩ => rfl | ⟨1, _⟩ => rfl))

/-! ### Read's index functions at an index given by coordinates -/

theorem idx39_ix2 (k' : Fin 1700000) (q : Fin 128) : idx_main_v39 (ix2 k' q) = ix2 k' (0 : Fin 1) :=
  funext fun a => by match a with | ⟨0, _⟩ => rfl | ⟨1, _⟩ => rfl
theorem idx38_ix2 (k' : Fin 1700000) : idx_main_v38 (ix2 k' (0 : Fin 1)) = ix1 k' :=
  funext fun a => by match a with | ⟨0, _⟩ => rfl
theorem idx83_ix2 (k' : Fin 1700000) (q : Fin 40) : idx_main_v83 (ix2 k' q) = ix2 k' (0 : Fin 1) :=
  funext fun a => by match a with | ⟨0, _⟩ => rfl | ⟨1, _⟩ => rfl
theorem idx82_ix2 (k' : Fin 1700000) : idx_main_v82 (ix2 k' (0 : Fin 1)) = ix1 k' :=
  funext fun a => by match a with | ⟨0, _⟩ => rfl
theorem idx44_45_ix2 (c : Fin 100000) (q : Fin 128) : idx_main_v44 (idx_main_v45 (ix2 c q)) = ix1 q :=
  funext fun a => by match a with | ⟨0, _⟩ => rfl
theorem idx88_89_ix2 (c : Fin 100000) (q : Fin 40) : idx_main_v88 (idx_main_v89 (ix2 c q)) = ix1 q :=
  funext fun a => by match a with | ⟨0, _⟩ => rfl

/-- Layer 1's message of extended entry k', feature q: the gathered projected row times the two gathered factors. -/
theorem message1 (k' : Fin 1700000) (q : Fin 128) :
    val_main_v40 (F := Ideal) x0 x1 x2 (ix2 k' q)
      = Host.gather (rowGatherDims 100000 1700000 128 gather_S100000x128_S1700000x1_S1700000x128_1_0_n_n_0_1_1128_wf)
          (matProd x0 x2) (normColumn (extend (Cert.KernelIdeal.GraphTerms.srcWords x1))) (ix2 k' q)
        * (Host.gather (entryGather gather_S100000_S1700000x1_S1700000_n_0_n_n_0_1_1_wf) (Cert.KernelIdeal.GraphTerms.factor x1)
              (normColumn (extend (Cert.KernelIdeal.GraphTerms.srcWords x1))) (ix1 k')
          * Host.gather (entryGather gather_S100000_S1700000x1_S1700000_n_0_n_n_0_1_1_wf) (Cert.KernelIdeal.GraphTerms.factor x1)
              (normColumn (extend (Cert.KernelIdeal.GraphTerms.dstWords x1))) (ix1 k')) := by
  rw [val_main_v40_apply, val_main_v39_apply, val_main_v38_apply, val_main_v29_apply, idx39_ix2, idx38_ix2]
  unfold val_main_v37 val_main_v21 val_main_v28
  rw [proj1_eq, factor1_eq]
  rfl
/-- Layer 2's message. -/
theorem message2 (k' : Fin 1700000) (q : Fin 40) :
    val_main_v84 (F := Ideal) x0 x1 x2 x3 x4 (ix2 k' q)
      = Host.gather (rowGatherDims 100000 1700000 40 gather_S100000x40_S1700000x1_S1700000x40_1_0_n_n_0_1_140_wf)
          (matProd (val_main_v47 (F := Ideal) x0 x1 x2 x3) x4) (normColumn (extend (Cert.KernelIdeal.GraphTerms.srcWords x1))) (ix2 k' q)
        * (Host.gather (entryGather gather_S100000_S1700000x1_S1700000_n_0_n_n_0_1_1_wf) (Cert.KernelIdeal.GraphTerms.factor x1)
              (normColumn (extend (Cert.KernelIdeal.GraphTerms.srcWords x1))) (ix1 k')
          * Host.gather (entryGather gather_S100000_S1700000x1_S1700000_n_0_n_n_0_1_1_wf) (Cert.KernelIdeal.GraphTerms.factor x1)
              (normColumn (extend (Cert.KernelIdeal.GraphTerms.dstWords x1))) (ix1 k')) := by
  rw [val_main_v84_apply, val_main_v83_apply, val_main_v82_apply, val_main_v73_apply, idx83_ix2, idx82_ix2]
  unfold val_main_v81 val_main_v65 val_main_v72
  rw [proj2_eq, factor2_eq]
  rfl

/-- THE HIDDEN ACTIVATIONS: the reference's are the kernel's. -/
theorem hidden_eq : val_main_v47 (F := Ideal) x0 x1 x2 x3 = Cert.KernelIdeal.GraphTerms.hidden x1 x0 x2 x3 := by
  funext p
  obtain ⟨c, q, rfl⟩ : ∃ (c : Fin 100000) (q : Fin 128), p = ix2 c q := ⟨p 0, p 1, eq_ix2 p⟩
  rw [val_main_v47_apply, val_main_v46_apply, val_main_call1_v0_apply, val_main_call1_cst_apply, val_main_v45_apply,
    val_main_v44_apply, idx44_45_ix2, Ideal.ofBits_def, Ideal.maximumf_def, Ideal.addf_def]
  show max (val_main_v43 (F := Ideal) x0 x1 x2 (ix2 c q) + x3 (ix1 q)) (Ideal.ofBits .f32 0x00000000#32)
    = max (Cert.GraphConv.combine _ _ _ x3 (ix2 c q)) (Ideal.ofBits .f32 0x00000000#32)
  refine congrArg (fun v => max v (Ideal.ofBits .f32 0x00000000#32)) ?_
  exact layer_out x1 Cert.KernelIdeal.Facts₀.scatter_S100000x128_S1600000x1_S1600000x128_1_0_0_1_wf
    scatter_S100000x128_S1700000x1_S1700000x128_1_0_0_1_wf
    Cert.KernelIdeal.Facts₀.gather_S100000x128_S1600000x1_S1600000x128_1_0_n_n_0_1_1128_wf
    gather_S100000x128_S1700000x1_S1700000x128_1_0_n_n_0_1_1128_wf
    gather_S100000_S1700000x1_S1700000_n_0_n_n_0_1_1_wf x0 x2 x3 _ (val_main_v41 (F := Ideal))
    (fun p => (splat_apply _ _ p).trans Ideal.ofBits_zero_f32) (fun p => (splat_apply _ _ p).trans Ideal.ofBits_zero_f32)
    (val_main_v40 (F := Ideal) x0 x1 x2) (message1 x0 x1 x2) c q

/-- THE OUTPUT: the reference's is the kernel's. -/
theorem logits_eq : val_main_v90 (F := Ideal) x0 x1 x2 x3 x4 x5 = Cert.KernelIdeal.GraphTerms.logits x1 x0 x2 x3 x4 x5 := by
  funext p
  obtain ⟨c, q, rfl⟩ : ∃ (c : Fin 100000) (q : Fin 40), p = ix2 c q := ⟨p 0, p 1, eq_ix2 p⟩
  rw [val_main_v90_apply, val_main_v89_apply, val_main_v88_apply, idx88_89_ix2, Ideal.addf_def]
  unfold Cert.KernelIdeal.GraphTerms.logits Cert.KernelIdeal.GraphTerms.scaled2
  rw [← hidden_eq x0 x1 x2 x3]
  show val_main_v87 (F := Ideal) x0 x1 x2 x3 x4 (ix2 c q) + x5 (ix1 q) = Cert.GraphConv.combine _ _ _ x5 (ix2 c q)
  exact layer_out x1 Cert.KernelIdeal.Facts₀.scatter_S100000x40_S1600000x1_S1600000x40_1_0_0_1_wf
    scatter_S100000x40_S1700000x1_S1700000x40_1_0_0_1_wf
    Cert.KernelIdeal.Facts₀.gather_S100000x40_S1600000x1_S1600000x40_1_0_n_n_0_1_140_wf
    gather_S100000x40_S1700000x1_S1700000x40_1_0_n_n_0_1_140_wf
    gather_S100000_S1700000x1_S1700000_n_0_n_n_0_1_1_wf (val_main_v47 (F := Ideal) x0 x1 x2 x3) x4 x5 _ (val_main_v85 (F := Ideal))
    (fun p => (splat_apply _ _ p).trans Ideal.ofBits_zero_f32) (fun p => (splat_apply _ _ p).trans Ideal.ofBits_zero_f32)
    (val_main_v84 (F := Ideal) x0 x1 x2 x3 x4) (message2 x0 x1 x2 x3 x4) c q

end Recognise

end Cert.ReferenceIdeal.GraphValue

end
-- ==== Proof.lean ====
/-
  A two-layer graph convolution with symmetric normalisation: the Pallas kernel program against its jnp reference.

  Both programs take node features x [n, 128], an edge list [2, E] of words (row 0 sources, row 1 targets), and the
  weights and biases of two layers. With deg(i) = 1 + #{edges with target i} and D(i) = 1/√deg(i), a layer maps rows H to

      out[i, q] = ( Σ_{e : target e = i} (H·W)[source e, q] · D(source e)  +  (H·W)[i, q] · D(i) ) · D(i) + b[q],

  the hidden layer rectified, the output layer not; the results are the output and the hidden activations.
  * The kernel computes exactly this: a matmul-and-scale region, a gather of rows and an accumulating scatter on the
    host, and a combine region, twice; the degree is a scatter of ones plus one.
  * The reference appends a loop i → i for every node to the edge list, counts degrees over the extended list, guards
    1/√deg against deg = 0, and sums over the extended list the rows weighed by D(source)·D(target).
  They agree at every entry over the extended reals: a loop contributes exactly one term to every sum at its node, so
  the extended degree is the bare count plus one (hence positive, the guard never fires, and D is a nonnegative finite
  number), and every term summed at node i carries the factor D(i), which moves out of the sum because a nonnegative
  finite factor distributes over any sum of extended reals. The float inputs' finiteness is never used.

  The kernel's frames are the generated ones. The kernel's values are read off its regions' composition (each region's
  array after its run is the layer function of the arrays it found). The reference's run and its operations read at
  an index are the generated modules' patched copies (Proof/RefRun.lean, Proof/RefRead.lean).
-/
import proofs.«154312_j15479062135311_2_alg».proof.Defs
import proofs.«154312_j15479062135311_2_alg».proof.Proof.Gen.Kernel
import proofs.«154312_j15479062135311_2_alg».proof.Proof.Gen.Kernel.Skeleton
import proofs.«154312_j15479062135311_2_alg».proof.Proof.Gen.Kernel.Launch
import proofs.«154312_j15479062135311_2_alg».proof.Proof.Gen.Kernel.Points
import proofs.«154312_j15479062135311_2_alg».proof.Proof.Gen.Kernel.Frame
import proofs.«154312_j15479062135311_2_alg».proof.Proof.Gen.KernelIdeal
import proofs.«154312_j15479062135311_2_alg».proof.Proof.Gen.KernelIdeal.Skeleton
import proofs.«154312_j15479062135311_2_alg».proof.Proof.Gen.KernelIdeal.Launch
import proofs.«154312_j15479062135311_2_alg».proof.Proof.Gen.KernelIdeal.Points
import proofs.«154312_j15479062135311_2_alg».proof.Proof.Gen.KernelIdeal.Frame
import proofs.«154312_j15479062135311_2_alg».proof.Proof.Gen.ReferenceIdeal
import proofs.«154312_j15479062135311_2_alg».proof.Proof.Gen.Pre_finite_inputs
import proofs.«154312_j15479062135311_2_alg».proof.Proof.RefRun
import proofs.«154312_j15479062135311_2_alg».proof.Proof.RefRead
import proofs.«154312_j15479062135311_2_alg».proof.Proof.KernelValue
import proofs.«154312_j15479062135311_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ
/-- So does the idealized kernel. -/
theorem frame_kernelIdeal : Cert.frame_KernelIdeal := fun m ρ _ => Cert.KernelIdeal.Gen.frame m ρ
/-- So does the reference: its run, the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories that agree on the arguments both idealized programs end with the same output and the same hidden
    activations: the kernel's functions of the arguments, which the reference's terms are, entry by entry. -/
theorem algebraic : Cert.algebraic_KernelIdeal_ReferenceIdeal := by
  intro m ρ m' ρ' _ hagree
  refine ⟨_, _, Cert.KernelIdeal.GraphResult.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v90_eq, Cert.ReferenceIdeal.GraphValue.logits_eq,
      (hagree c).1, (hagree c).2.1, (hagree c).2.2.1, (hagree c).2.2.2.1, (hagree c).2.2.2.2.1, (hagree c).2.2.2.2.2]
  · rw [Cert.ReferenceIdeal.ReadP.val_main_v47_eq, Cert.ReferenceIdeal.GraphValue.hidden_eq,
      (hagree c).1, (hagree c).2.1, (hagree c).2.2.1, (hagree c).2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
